-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_arg14 : FVec F S1024x1024 .f32) (main_arg15 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  main_v78

def fn_part3 {F : FTy → Type} [FloatOps F] (main_arg11 : FVec F S1024 .f32) (main_arg12 : FVec F S1024x1024 .f32) (main_arg13 : FVec F S1024 .f32) (main_arg14 : FVec F S1024x1024 .f32) (main_arg15 : FVec F S1024 .f32) (main_v48 : IVec S_ 1) (main_v49 : FVec F S1024x2048 .f32) (main_v50 : FVec F S1024x2048 .f32) : IVec S_ 1 :=
  let main_v51 : IVec S1024x2048 1 := cmpf .olt main_v49 main_v50
  let main_c_19 : IVec S_ 1 := constantI S_ 1 1#1
  let main_v52 : IVec S_ 1 := (fun x v => Host.reduce IntOp.andi x v reducesTo_S1024x2048_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_v63 main_v67

def fn_part2 {F : FTy → Type} [FloatOps F] (main_arg7 : FVec F S1024 .f32) (main_arg8 : FVec F S1024x2048 .f32) (main_arg9 : FVec F S1024 .f32) (main_arg10 : FVec F S1024x2048 .f32) (main_arg11 : FVec F S1024 .f32) (main_arg12 : FVec F S1024x1024 .f32) (main_arg13 : FVec F S1024 .f32) (main_arg14 : FVec F S1024x1024 .f32) (main_arg15 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x2048 .f32 := Host.absf main_arg8
  let main_cst_14 : FVec F S_ .f32 := constant S_ .f32 0x7F800000#32
  let main_v40 : FVec F S1024x2048 .f32 := broadcastInDim S1024x2048 ![] bcast_S_S1024x2048 main_cst_14
  let main_v41 : IVec S1024x2048 1 := cmpf .olt main_v39 main_v40
  let main_c_15 : IVec S_ 1 := constantI S_ 1 1#1
  let main_v42 : IVec S_ 1 := (fun x v => Host.reduce IntOp.andi x v reducesTo_S1024x2048_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x2048 .f32 := Host.absf main_arg10
  let main_cst_18 : FVec F S_ .f32 := constant S_ .f32 0x7F800000#32
  let main_v50 : FVec F S1024x2048 .f32 := broadcastInDim S1024x2048 ![] bcast_S_S1024x2048 main_cst_18
  fn_part3 (F := F) main_arg11 main_arg12 main_arg13 main_arg14 main_arg15 main_v48 main_v49 main_v50

def fn_part1 {F : FTy → Type} [FloatOps F] (main_arg4 : FVec F S1024x2048 .f32) (main_arg5 : FVec F S1024 .f32) (main_arg6 : FVec F S1024x2048 .f32) (main_arg7 : FVec F S1024 .f32) (main_arg8 : FVec F S1024x2048 .f32) (main_arg9 : FVec F S1024 .f32) (main_arg10 : FVec F S1024x2048 .f32) (main_arg11 : FVec F S1024 .f32) (main_arg12 : FVec F S1024x1024 .f32) (main_arg13 : FVec F S1024 .f32) (main_arg14 : FVec F S1024x1024 .f32) (main_arg15 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1024x2048 .f32) (main_arg5 : FVec F S1024 .f32) (main_arg6 : FVec F S1024x2048 .f32) (main_arg7 : FVec F S1024 .f32) (main_arg8 : FVec F S1024x2048 .f32) (main_arg9 : FVec F S1024 .f32) (main_arg10 : FVec F S1024x2048 .f32) (main_arg11 : FVec F S1024 .f32) (main_arg12 : FVec F S1024x1024 .f32) (main_arg13 : FVec F S1024 .f32) (main_arg14 : FVec F S1024x1024 .f32) (main_arg15 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S2048x1024 : Shape := ⟨2, ![2048, 1024]⟩
abbrev S2048 : Shape := ⟨1, ![2048]⟩
abbrev S1x2048 : Shape := ⟨2, ![1, 2048]⟩
abbrev S1x1024 : Shape := ⟨2, ![1, 1024]⟩
abbrev S128x1024 : Shape := ⟨2, ![128, 1024]⟩
abbrev S128x2048 : Shape := ⟨2, ![128, 2048]⟩

abbrev nBuf : Space → Nat
  | .hbm => 42
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x2048, .f32⟩
  | .hbm, ⟨9, _⟩ => ⟨S1024, .f32⟩
  | .hbm, ⟨10, _⟩ => ⟨S1024x2048, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S2048x1024, .bf16⟩
  | .hbm, ⟨27, _⟩ => ⟨S2048x1024, .bf16⟩
  | .hbm, ⟨28, _⟩ => ⟨S2048, .f32⟩
  | .hbm, ⟨29, _⟩ => ⟨S1x2048, .f32⟩
  | .hbm, ⟨30, _⟩ => ⟨S1024x1024, .f32⟩
  | .hbm, ⟨31, _⟩ => ⟨S1024x1024, .f32⟩
  | .hbm, ⟨32, _⟩ => ⟨S1024x1024, .bf16⟩
  | .hbm, ⟨33, _⟩ => ⟨S1024x1024, .bf16⟩
  | .hbm, ⟨34, _⟩ => ⟨S1024x1024, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S2048x1024, .bf16⟩
  | .local _ .vmem, ⟨16, _⟩ => ⟨S2048x1024, .bf16⟩
  | .local _ .vmem, ⟨17, _⟩ => ⟨S1x2048, .f32⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  bitsLt_bf16_f32 : FTy.bits .bf16 < FTy.bits .f32
  concatenates_S1024x1024_S1024x1024_S2048x1024_d0 : Shape.Concatenates [S1024x1024, S1024x1024] S2048x1024 0
  concatenates_S1024_S1024_S2048_d0 : Shape.Concatenates [S1024, S1024] S2048 0
  shapeCasts_S2048_S1x2048 : S2048.ShapeCasts S1x2048
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  natLt_1_32 : 1 < 32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  slices_S128x2048_o0_0_S128x1024 : S128x2048.Slices ![0, 0] S128x1024
  slices_S128x2048_o0_1024_S128x1024 : S128x2048.Slices ![0, 1024] S128x1024
  dot_S128x1024_S1024x1024_S128x1024_1_1_0_0_n_n_wf : DotDims.WF S128x1024 S1024x1024 S128x1024 [1] [1] [0] [0] [] []
  dot_S128x1024_S2048x1024_S128x2048_1_1_0_0_n_n_wf : DotDims.WF S128x1024 S2048x1024 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S4096x1024.size a
  hwx0_3 : ∀ i : grid0.Coords, EltTy.bits .f32 = 32 ∨ (Rect.block (s := S4096x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .f32 = 32 ∨ (Rect.block (s := S1024x1024) S1024x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .f32 = 32 ∨ (Rect.block (s := S1024x1024) S1024x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x1024.size a ≤ S2048x1024.size a
  hwx0_11 : ∀ i : grid0.Coords, EltTy.bits .bf16 = 32 ∨ (Rect.block (s := S2048x1024) S2048x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048x1024.size a ≤ S2048x1024.size a
  hwx0_12 : ∀ i : grid0.Coords, EltTy.bits .bf16 = 32 ∨ (Rect.block (s := S2048x1024) S2048x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x2048.size a ≤ S1x2048.size a
  hwx0_13 : ∀ i : grid0.Coords, EltTy.bits .f32 = 32 ∨ (Rect.block (s := S1x2048) S1x2048.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x1024.size a ≤ S1024x1024.size a
  hwx0_14 : ∀ i : grid0.Coords, EltTy.bits .bf16 = 32 ∨ (Rect.block (s := S1024x1024) S1024x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x1024.size a ≤ S1024x1024.size a
  hwx0_15 : ∀ i : grid0.Coords, EltTy.bits .bf16 = 32 ∨ (Rect.block (s := S1024x1024) S1024x1024.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x1024.size a ≤ S4096x1024.size a
  hwx0_17 : ∀ i : grid0.Coords, EltTy.bits .f32 = 32 ∨ (Rect.block (s := S4096x1024) S128x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S128x1024.size a ≤ S4096x1024.size a
  hwx0_18 : ∀ i : grid0.Coords, EltTy.bits .f32 = 32 ∨ (Rect.block (s := S4096x1024) S128x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S128x1024.size a ≤ S4096x1024.size a
  hwx0_19 : ∀ i : grid0.Coords, EltTy.bits .f32 = 32 ∨ (Rect.block (s := S4096x1024) S128x1024.size (cc0_transform_19 i) (hinb0_19 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S2048x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S2048x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x2048.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1024x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v17) S1024x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v22) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v23_0) S128x1024.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v23_1) S128x1024.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v23_2) S128x1024.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x2048 : Shape := ⟨2, ![1024, 2048]⟩
abbrev S1024 : Shape := ⟨1, ![1024]⟩
abbrev S1024x1024 : Shape := ⟨2, ![1024, 1024]⟩
abbrev S4096x2048 : Shape := ⟨2, ![4096, 2048]⟩
abbrev S1x1024 : Shape := ⟨2, ![1, 1024]⟩
abbrev S_ : Shape := ⟨0, ![]⟩
abbrev S2048x1024 : Shape := ⟨2, ![2048, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x2048, .f32⟩
  | .hbm, ⟨9, _⟩ => ⟨S1024, .f32⟩
  | .hbm, ⟨10, _⟩ => ⟨S1024x2048, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S4096x2048, .f32⟩
  | .hbm, ⟨17, _⟩ => ⟨S1024x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S1024x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S2048x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .i1⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S2048x1024, .f32⟩
  | .hbm, ⟨73, _⟩ => ⟨S4096x1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x2048, .f32⟩
  | .hbm, ⟨88, _⟩ => ⟨S2048x1024, .f32⟩
  | .hbm, ⟨89, _⟩ => ⟨S4096x1024, .f32⟩
  | .hbm, ⟨90, _⟩ => ⟨S1x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S2048x1024, .f32⟩
  | .hbm, ⟨95, _⟩ => ⟨S4096x1024, .f32⟩
  | .hbm, ⟨96, _⟩ => ⟨S1x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S4096x1024, .f32⟩
  | .hbm, ⟨106, _⟩ => ⟨S4096x1024, .f32⟩
  | .hbm, ⟨107, _⟩ => ⟨S_, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call0_cst : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_9 : Ref sig .tc := ⟨.hbm, 101, rfl⟩
abbrev main_v73 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_v76 : Ref sig .tc := ⟨.hbm, 106, rfl⟩
abbrev main_cst_11 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S1024x2048_S2048x1024_1_0 : S1024x2048.Transposes [1, 0] S2048x1024
  dot_S4096x1024_S1024x1024_S4096x1024_1_0_0_1_n_n_wf : DotDims.WF S4096x1024 S1024x1024 S4096x1024 [1] [0] [0] [1] [] []
  dot_S4096x2048_S2048x1024_S4096x1024_1_0_0_1_n_n_wf : DotDims.WF S4096x2048 S2048x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.MatmulAt.lean ====
/-
  The kernel's matrix products read at an entry. Every product of the body multiplies a [128, 1024] block of rows by a
  weight stored [n, 1024] (n = 1024, or 2048 for the two fused gates), contracting the LAST axis of both — x · Wᵀ — into an
  accumulator of zeros. On the extended reals such a product is, at entry (p, q), the plain sum over the 1024 input
  features of block(p, k) · weight(q, k). The proof re-indexes the contraction's one-axis index type by `Fin 1024` and
  computes the two operand indices coordinate by coordinate.
-/
import proofs.«165451_j4337916969454_2_alg».proof.KernelIdeal
import proofs.«165451_j4337916969454_2_alg».proof.Proof.Gen.KernelIdeal
import Idealize.ShloMosaic.Lib.ValueIdx
import Idealize.ShloMosaic.PureOps.Ideal.Laws

noncomputable section

namespace Cert.KernelIdeal.MatmulAt

open Cert.KernelIdeal Idealize.ShloMosaic Idealize.ShloMosaic.ValueIdx

/-! ### A [128, 1024] block against a [1024, 1024] weight, both contracted on their last axis -/

theorem lhsSq_0 (i : S128x1024.Idx) (κ : dot_S128x1024_S1024x1024_S128x1024_1_1_0_0_n_n.contr.Idx) : (dot_S128x1024_S1024x1024_S128x1024_1_1_0_0_n_n.lhsIdx i κ 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl

theorem lhsSq_1 (i : S128x1024.Idx) (κ : dot_S128x1024_S1024x1024_S128x1024_1_1_0_0_n_n.contr.Idx) : (dot_S128x1024_S1024x1024_S128x1024_1_1_0_0_n_n.lhsIdx i κ 1).val = (κ ⟨0, by decide⟩).val :=
  dot_S128x1024_S1024x1024_S128x1024_1_1_0_0_n_n.lhsIdx_val_of_single rfl i κ

theorem rhsSq_0 (i : S128x1024.Idx) (κ : dot_S128x1024_S1024x1024_S128x1024_1_1_0_0_n_n.contr.Idx) : (dot_S128x1024_S1024x1024_S128x1024_1_1_0_0_n_n.rhsIdx i κ 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl

theorem rhsSq_1 (i : S128x1024.Idx) (κ : dot_S128x1024_S1024x1024_S128x1024_1_1_0_0_n_n.contr.Idx) : (dot_S128x1024_S1024x1024_S128x1024_1_1_0_0_n_n.rhsIdx i κ 1).val = (κ ⟨0, by decide⟩).val :=
  dot_S128x1024_S1024x1024_S128x1024_1_1_0_0_n_n.rhsIdx_val_of_single rfl i κ

/-- Entry `(p, q)` of the product into the zero accumulator is `∑ k, a (p, k) · b (q, k)`: row `p` of the block against
    row `q` of the weight. Whatever the precision the operation asks for: at the exact values there is no rounding. -/
theorem matmulSq_at {φ₁ φ₂ : FTy} (prec : Option ContractPrecision) (a : FVec Ideal S128x1024 φ₁) (b : FVec Ideal S1024x1024 φ₂)
    (p : Fin 128) (q : Fin 1024) :
    matmul dot_S128x1024_S1024x1024_S128x1024_1_1_0_0_n_n prec a b (constant S128x1024 .f32 0x00000000#32) (ix2 p q)
      = ∑ k : Fin 1024, a (ix2 p k) * b (ix2 q k) := by
  simp only [matmul]
  rw [Ideal.matmul_constant_zero_apply, ← Equiv.sum_comp (ValueIdx.contrEquiv1 dot_S128x1024_S1024x1024_S128x1024_1_1_0_0_n_n 1024 rfl rfl).symm]
  refine Finset.sum_congr rfl fun k _ => ?_
  have hk := ValueIdx.contrEquiv1_symm_val dot_S128x1024_S1024x1024_S128x1024_1_1_0_0_n_n 1024 rfl rfl k
  have el : dot_S128x1024_S1024x1024_S128x1024_1_1_0_0_n_n.lhsIdx (ix2 p q) ((ValueIdx.contrEquiv1 dot_S128x1024_S1024x1024_S128x1024_1_1_0_0_n_n 1024 rfl rfl).symm k) = ix2 p k := funext fun d => Fin.ext (by
    match d with
    | ⟨0, _⟩ => exact lhsSq_0 _ _
    | ⟨1, _⟩ => exact (lhsSq_1 _ _).trans hk)
  have er : dot_S128x1024_S1024x1024_S128x1024_1_1_0_0_n_n.rhsIdx (ix2 p q) ((ValueIdx.contrEquiv1 dot_S128x1024_S1024x1024_S128x1024_1_1_0_0_n_n 1024 rfl rfl).symm k) = ix2 q k := funext fun d => Fin.ext (by
    match d with
    | ⟨0, _⟩ => exact rhsSq_0 _ _
    | ⟨1, _⟩ => exact (rhsSq_1 _ _).trans hk)
  rw [el, er]

/-! ### A [128, 1024] block against a [2048, 1024] weight, both contracted on their last axis -/

theorem lhsWide_0 (i : S128x2048.Idx) (κ : dot_S128x1024_S2048x1024_S128x2048_1_1_0_0_n_n.contr.Idx) : (dot_S128x1024_S2048x1024_S128x2048_1_1_0_0_n_n.lhsIdx i κ 0).val = (i 0).val := by
  unfold DotDims.lhsIdx
  rw [dif_neg (show ¬(0 : Fin S128x1024.rank) ∈ dot_S128x1024_S2048x1024_S128x2048_1_1_0_0_n_n.lhsBatch by decide), dif_pos (show (0 : Fin S128x1024.rank) ∈ dot_S128x1024_S2048x1024_S128x2048_1_1_0_0_n_n.lhsNonContracting by decide)]
  rfl

theorem lhsWide_1 (i : S128x2048.Idx) (κ : dot_S128x1024_S2048x1024_S128x2048_1_1_0_0_n_n.contr.Idx) : (dot_S128x1024_S2048x1024_S128x2048_1_1_0_0_n_n.lhsIdx i κ 1).val = (κ ⟨0, by decide⟩).val :=
  dot_S128x1024_S2048x1024_S128x2048_1_1_0_0_n_n.lhsIdx_val_of_single rfl i κ

theorem rhsWide_0 (i : S128x2048.Idx) (κ : dot_S128x1024_S2048x1024_S128x2048_1_1_0_0_n_n.contr.Idx) : (dot_S128x1024_S2048x1024_S128x2048_1_1_0_0_n_n.rhsIdx i κ 0).val = (i 1).val := by
  unfold DotDims.rhsIdx
  rw [dif_neg (show ¬(0 : Fin S2048x1024.rank) ∈ dot_S128x1024_S2048x1024_S128x2048_1_1_0_0_n_n.rhsBatch by decide), dif_pos (show (0 : Fin S2048x1024.rank) ∈ dot_S128x1024_S2048x1024_S128x2048_1_1_0_0_n_n.rhsNonContracting by decide)]
  rfl

theorem rhsWide_1 (i : S128x2048.Idx) (κ : dot_S128x1024_S2048x1024_S128x2048_1_1_0_0_n_n.contr.Idx) : (dot_S128x1024_S2048x1024_S128x2048_1_1_0_0_n_n.rhsIdx i κ 1).val = (κ ⟨0, by decide⟩).val :=
  dot_S128x1024_S2048x1024_S128x2048_1_1_0_0_n_n.rhsIdx_val_of_single rfl i κ

/-- Entry `(p, q)` of the product into the zero accumulator is `∑ k, a (p, k) · b (q, k)`: row `p` of the block against
    row `q` of the weight. Whatever the precision the operation asks for: at the exact values there is no rounding. -/
theorem matmulWide_at {φ₁ φ₂ : FTy} (prec : Option ContractPrecision) (a : FVec Ideal S128x1024 φ₁) (b : FVec Ideal S2048x1024 φ₂)
    (p : Fin 128) (q : Fin 2048) :
    matmul dot_S128x1024_S2048x1024_S128x2048_1_1_0_0_n_n prec a b (constant S128x2048 .f32 0x00000000#32) (ix2 p q)
      = ∑ k : Fin 1024, a (ix2 p k) * b (ix2 q k) := by
  simp only [matmul]
  rw [Ideal.matmul_constant_zero_apply, ← Equiv.sum_comp (ValueIdx.contrEquiv1 dot_S128x1024_S2048x1024_S128x2048_1_1_0_0_n_n 1024 rfl rfl).symm]
  refine Finset.sum_congr rfl fun k _ => ?_
  have hk := ValueIdx.contrEquiv1_symm_val dot_S128x1024_S2048x1024_S128x2048_1_1_0_0_n_n 1024 rfl rfl k
  have el : dot_S128x1024_S2048x1024_S128x2048_1_1_0_0_n_n.lhsIdx (ix2 p q) ((ValueIdx.contrEquiv1 dot_S128x1024_S2048x1024_S128x2048_1_1_0_0_n_n 1024 rfl rfl).symm k) = ix2 p k := funext fun d => Fin.ext (by
    match d with
    | ⟨0, _⟩ => exact lhsWide_0 _ _
    | ⟨1, _⟩ => exact (lhsWide_1 _ _).trans hk)
  have er : dot_S128x1024_S2048x1024_S128x2048_1_1_0_0_n_n.rhsIdx (ix2 p q) ((ValueIdx.contrEquiv1 dot_S128x1024_S2048x1024_S128x2048_1_1_0_0_n_n 1024 rfl rfl).symm k) = ix2 q k := funext fun d => Fin.ext (by
    match d with
    | ⟨0, _⟩ => exact rhsWide_0 _ _
    | ⟨1, _⟩ => exact (rhsWide_1 _ _).trans hk)
  rw [el, er]

end Cert.KernelIdeal.MatmulAt

end
-- ==== Proof.Halves.lean ====
/-
  The two halves of a 2048-long axis. A weight matrix of the cell is stored [1024, 2048]: its first 1024 columns act on
  the input row, its last 1024 on the state row. `lo k` and `hi k` are column `k` of the first and of the second half,
  and a sum over all 2048 columns is the sum over the first half plus the sum over the second half — in any commutative
  monoid, so in particular on the extended reals, where no cancellation or distributivity is available or needed.
-/
import Mathlib.Algebra.BigOperators.Fin
import Mathlib.Data.Fin.Tuple.Basic

namespace Cert.Cell

/-- Column `k` of the first half. -/
def lo (k : Fin 1024) : Fin 2048 := ⟨k.val, by omega⟩
/-- Column `k` of the second half. -/
def hi (k : Fin 1024) : Fin 2048 := ⟨1024 + k.val, by omega⟩

@[simp] theorem lo_val (k : Fin 1024) : (lo k).val = k.val := rfl
@[simp] theorem hi_val (k : Fin 1024) : (hi k).val = 1024 + k.val := rfl

/-- A sum over the 2048 columns is the sum over the first half plus the sum over the second half. -/
theorem sum_halves {M : Type*} [AddCommMonoid M] (f : Fin 2048 → M) :
    ∑ j : Fin 2048, f j = ∑ k : Fin 1024, f (lo k) + ∑ k : Fin 1024, f (hi k) := by
  have h := Fin.sum_univ_add (a := 1024) (b := 1024) (fun j : Fin (1024 + 1024) => f ⟨j.val, by omega⟩)
  have e : (∑ j : Fin (1024 + 1024), f ⟨j.val, by omega⟩) = ∑ j : Fin 2048, f j := rfl
  rw [← e, h]
  refine congrArg₂ (· + ·) (Finset.sum_congr rfl fun k _ => ?_) (Finset.sum_congr rfl fun k _ => ?_)
  · exact congrArg f (Fin.ext rfl)
  · exact congrArg f (Fin.ext rfl)

end Cert.Cell
-- ==== Proof.CellSpec.lean ====
/-
  The recurrent cell, one batch row at a time, on the extended reals.

  A row of the batch is a vector of 1024 extended reals; a weight matrix is read as `W q k`, output feature `q`, input
  feature `k`; a bias is a row. Every affine map of the cell is `x · W q + b q` (one input row) or
  `(x · Wx q + h · Wh q) + b q` (an input row and a state row, each against its own half of the columns of one wide matrix).

  With  σ z = 1 / (1 + e^(-z))  the cell computes, feature by feature,
    ratio   = σ (x · Tr + b)                       up      = tanh (x · Wtx + h · Wth + b)
    tcNew   = ratio · max (tc + up) 0 − 1          leap    = 1 if tcNew ≤ 0, else 0
    tcOut   = (1 − leap) · tcNew                   energy  = leap · ex
    exOut   = ((ex − energy) + σ (x · Ei + b) · (1 − leap)) + σ (x · Wax + h · Wah + b)
    hState  = tanh (x · Ehx + (h ⊙ energy) · Ehh + b)
    hNext   = tanh ((1 − hw) · h + hw · hState),   hw = σ (x · Hwx + h · Hwh + b).
  Row `r` of each output depends on row `r` of the four data arrays only: this is why a block of 128 rows and the whole
  batch of 4096 rows are instances of ONE function. The constants 0 and 1 are kept as the f32 words the programs print.
-/
import Idealize.ShloMosaic.PureOps.Ideal

noncomputable section

namespace Cert.Cell

open Idealize.ShloMosaic

/-- One row of the batch, or a bias. -/
abbrev Row := Fin 1024 → EReal
/-- A weight matrix `W q k`: output feature `q`, input feature `k`. -/
abbrev Mat := Fin 1024 → Fin 1024 → EReal

/-- The f32 word of 0 as an extended real. -/
abbrev w0 : EReal := Ideal.ofBits .f32 0x00000000#32
/-- The f32 word of 1 as an extended real. -/
abbrev w1 : EReal := Ideal.ofBits .f32 0x3F800000#32

/-- The inner product of a row with a row of weights. -/
def dot (x w : Row) : EReal := ∑ k : Fin 1024, x k * w k

/-- `x · W q + b q`. -/
def lin1 (x : Row) (W : Mat) (b : Row) : Row := fun q => dot x (W q) + b q

/-- `(x · Wx q + h · Wh q) + b q`. -/
def lin2 (x h : Row) (Wx Wh : Mat) (b : Row) : Row := fun q => (dot x (Wx q) + dot h (Wh q)) + b q

/-- The logistic function spelt with the word of 1: `1 / (1 + e^(-z))`. -/
def sigm (z : EReal) : EReal := Ideal.div w1 (w1 + Ideal.exp (-z))

/-- A bit as the extended real 0 or 1. -/
def bit01 (b : BitVec 1) : EReal := ((b.toNat : ℝ) : EReal)

/-- `ratio · max (tc + up) 0 − 1`. -/
def tcNew (x h tc : Row) (Tr : Mat) (Trb : Row) (Wtx Wth : Mat) (Wtb : Row) : Row := fun q =>
  sigm (lin1 x Tr Trb q) * max (tc q + Ideal.tanh (lin2 x h Wtx Wth Wtb q)) w0 - w1

/-- 1 where the new time cell is at most 0. -/
def leap (tcn : Row) : Row := fun q => bit01 (Ideal.cmp .ole (tcn q) w0)

/-- `(1 − leap) · tcNew`. -/
def tcOut (tcn : Row) : Row := fun q => (w1 - leap tcn q) * tcn q

/-- `leap · ex`. -/
def energy (ex tcn : Row) : Row := fun q => leap tcn q * ex q

/-- `((ex − energy) + ei · (1 − leap)) + absorb`. -/
def exOut (ex tcn ei absorb : Row) : Row := fun q =>
  ((ex q - energy ex tcn q) + ei q * (w1 - leap tcn q)) + absorb q

/-- `tanh ((1 − hw) · h + hw · hState)`. -/
def hNext (h hw hstate : Row) : Row := fun q =>
  Ideal.tanh ((w1 - hw q) * h q + hw q * hstate q)

/-- The new time cell of a row. -/
def cellTc (x h tc : Row) (Tr : Mat) (Trb : Row) (Wtx Wth : Mat) (Wtb : Row) : Row :=
  tcOut (tcNew x h tc Tr Trb Wtx Wth Wtb)

/-- The new excited cell of a row. -/
def cellEx (x h ex tc : Row) (Tr : Mat) (Trb : Row) (Wtx Wth : Mat) (Wtb : Row) (Ei : Mat) (Eib : Row)
    (Wax Wah : Mat) (Wab : Row) : Row :=
  exOut ex (tcNew x h tc Tr Trb Wtx Wth Wtb) (fun q => sigm (lin1 x Ei Eib q)) (fun q => sigm (lin2 x h Wax Wah Wab q))

/-- The new state of a row. -/
def cellH (x h ex tc : Row) (Tr : Mat) (Trb : Row) (Wtx Wth : Mat) (Wtb : Row) (Ehx Ehh : Mat) (Ehb : Row)
    (Hwx Hwh : Mat) (Hwb : Row) : Row :=
  hNext h (fun q => sigm (lin2 x h Hwx Hwh Hwb q))
    (fun q => Ideal.tanh (lin2 x (fun k => h k * energy ex (tcNew x h tc Tr Trb Wtx Wth Wtb) k) Ehx Ehh Ehb q))

/-- The word of 1 is the extended real 1. -/
theorem w1_eq_one : w1 = 1 := by
  show Ideal.ofBits .f32 0x3F800000#32 = 1
  simp [Ideal.ofBits, Ideal.ieee, -EReal.coe_mul]; norm_num

/-- The logistic function of the library is `sigm`. -/
theorem logistic_eq_sigm (z : EReal) : Ideal.logistic z = sigm z := by
  unfold sigm Ideal.logistic
  rw [w1_eq_one]

/-- A bit widened to 32 bits and read as a signed integer is the bit. -/
theorem toInt_setWidth_bit (b : BitVec 1) : (((b.setWidth 32).toInt : ℝ) : EReal) = bit01 b := by
  unfold bit01
  rcases BitVec.eq_zero_or_eq_one b with h | h <;> subst h <;> simp

end Cert.Cell

end
-- ==== Proof.CellArrays.lean ====
/-
  The cell over whole arrays. A data array [R, 1024] is read row by row, a square weight [1024, 1024] as it is, a wide
  weight [1024, 2048] as two square halves (first 1024 columns, last 1024 columns), a bias [1024] as a row. The three
  results of the cell over a [R, 1024] batch are then, at row `r` and feature `q`, the row functions of `CellSpec` at row
  `r` of the data: `arrH`, `arrEx`, `arrTc`. They are stated for any number of rows `R`, because a block of 128 rows of the
  batch and the batch of 4096 rows are both instances, and row `r` of a block that starts at row `o` is row `o + r` of the
  batch (`rowOf_shift`).
-/
import Idealize.ShloMosaic.Lib.ValueIdx
import proofs.«165451_j4337916969454_2_alg».proof.Proof.Halves
import proofs.«165451_j4337916969454_2_alg».proof.Proof.CellSpec

noncomputable section

namespace Cert.Cell

open Idealize.ShloMosaic Idealize.ShloMosaic.ValueIdx

/-- A data array of `R` rows. -/
abbrev Data (R : Nat) := (⟨2, ![R, 1024]⟩ : Shape).Idx → EReal
/-- A square weight. -/
abbrev Sq := (⟨2, ![1024, 1024]⟩ : Shape).Idx → EReal
/-- A wide weight: input-row columns, then state-row columns. -/
abbrev Wide := (⟨2, ![1024, 2048]⟩ : Shape).Idx → EReal
/-- A bias. -/
abbrev Bias := (⟨1, ![1024]⟩ : Shape).Idx → EReal

/-- Row `r` of a data array. -/
def rowOf {R : Nat} (a : Data R) (r : Fin R) : Row := fun k => a (ix2 r k)
/-- A square weight as `W q k`. -/
def matOf (W : Sq) : Mat := fun q k => W (ix2 q k)
/-- The first 1024 columns of a wide weight. -/
def matLo (W : Wide) : Mat := fun q k => W (ix2 q (lo k))
/-- The last 1024 columns of a wide weight. -/
def matHi (W : Wide) : Mat := fun q k => W (ix2 q (hi k))
/-- A bias as a row. -/
def biasOf (b : Bias) : Row := fun q => b (ix1 q)

/-- The new state over a batch of `R` rows (weights in the order: time, state, mixing, ratio). -/
def arrH {R : Nat} (x h ex tc : Data R) (Wt : Wide) (Wtb : Bias) (Eh : Wide) (Ehb : Bias) (Hw : Wide) (Hwb : Bias)
    (Tr : Sq) (Trb : Bias) : Data R := fun i =>
  cellH (rowOf x (i 0)) (rowOf h (i 0)) (rowOf ex (i 0)) (rowOf tc (i 0)) (matOf Tr) (biasOf Trb)
    (matLo Wt) (matHi Wt) (biasOf Wtb) (matLo Eh) (matHi Eh) (biasOf Ehb) (matLo Hw) (matHi Hw) (biasOf Hwb) (i 1)

/-- The new excited cell over a batch of `R` rows (weights in the order: time, absorb, ratio, initial energy). -/
def arrEx {R : Nat} (x h ex tc : Data R) (Wt : Wide) (Wtb : Bias) (Wa : Wide) (Wab : Bias) (Tr : Sq) (Trb : Bias)
    (Ei : Sq) (Eib : Bias) : Data R := fun i =>
  cellEx (rowOf x (i 0)) (rowOf h (i 0)) (rowOf ex (i 0)) (rowOf tc (i 0)) (matOf Tr) (biasOf Trb)
    (matLo Wt) (matHi Wt) (biasOf Wtb) (matOf Ei) (biasOf Eib) (matLo Wa) (matHi Wa) (biasOf Wab) (i 1)

/-- The new time cell over a batch of `R` rows (weights in the order: time, ratio). -/
def arrTc {R : Nat} (x h tc : Data R) (Wt : Wide) (Wtb : Bias) (Tr : Sq) (Trb : Bias) : Data R := fun i =>
  cellTc (rowOf x (i 0)) (rowOf h (i 0)) (rowOf tc (i 0)) (matOf Tr) (biasOf Trb)
    (matLo Wt) (matHi Wt) (biasOf Wtb) (i 1)

/-- If every entry of row `p` of `b` is the entry of row `r` of `a`, the two rows are one row. -/
theorem rowOf_eq_of {R R' : Nat} (a : Data R) (b : Data R') (r : Fin R) (p : Fin R')
    (h : ∀ k : Fin 1024, b (ix2 p k) = a (ix2 r k)) : rowOf b p = rowOf a r :=
  funext h

end Cert.Cell

end
-- ==== Proof.BlockCell.lean ====
/-
  One grid point of the kernel, entry by entry. The body loads four [128, 1024] blocks of rows (input, state, excited
  cell, time cell) and thirteen whole weights and biases, and stores three [128, 1024] blocks. Read at entry (p, q),
  each stored block is the cell of `CellSpec` at ROW p of the loaded data blocks and feature q:
    the time-cell block    = cellTc,   the excited-cell block = cellEx,   the state block = cellH,
  with the weights read off the loaded blocks: a square weight as it is, a bias [1, 1024] as its one row, and the two fused
  gates (absorb and mixing share one [2048, 1024] weight pair and one [1, 2048] bias; the body computes both at once as a
  [128, 2048] block and cuts it in two) as the top 1024 rows / first 1024 bias entries for absorb and the bottom rows /
  last entries for mixing. A change of float format is the identity on the extended reals, a product into a zero
  accumulator is the plain sum (`MatmulAt`), the logistic function is `sigm`, and the 0/1 threshold — a comparison bit
  widened to 32 bits and read as a signed integer — is `bit01` of the bit.
-/
import proofs.«165451_j4337916969454_2_alg».proof.Proof.Gen.KernelIdeal.Skeleton
import proofs.«165451_j4337916969454_2_alg».proof.Proof.MatmulAt
import proofs.«165451_j4337916969454_2_alg».proof.Proof.CellArrays
import Idealize.ShloMosaic.Lib.ValueLayout
import Idealize.ShloMosaic.Lib.Pipeline.Value

noncomputable section

namespace Cert.KernelIdeal.BlockCell

open Cert.KernelIdeal Cert.KernelIdeal.Gen Idealize.ShloMosaic Idealize.ShloMosaic.ValueIdx Cert.Cell Cert.KernelIdeal.MatmulAt

/-- A loaded [128, 1024] block of rows. -/
abbrev Blk := Vec Ideal S128x1024 .f32

/-- A bias loaded as a [1, 1024] block, as a row. -/
def brow (b : S1x1024.Idx → EReal) : Row := fun q => b (ix2 (0 : Fin 1) q)
/-- The first 1024 entries of the fused [1, 2048] bias. -/
def browLo (b : S1x2048.Idx → EReal) : Row := fun q => b (ix2 (0 : Fin 1) (lo q))
/-- The last 1024 entries of the fused [1, 2048] bias. -/
def browHi (b : S1x2048.Idx → EReal) : Row := fun q => b (ix2 (0 : Fin 1) (hi q))
/-- The top 1024 rows of a fused [2048, 1024] weight. -/
def matTop (W : S2048x1024.Idx → EReal) : Mat := fun q k => W (ix2 (lo q) k)
/-- The bottom 1024 rows of a fused [2048, 1024] weight. -/
def matBot (W : S2048x1024.Idx → EReal) : Mat := fun q k => W (ix2 (hi q) k)

/-! ## The three affine maps of one input row, and of an input row and a state row -/

/-- A block rounded to the matmul's float format is the block. -/
theorem pay2_eq (x0 : Blk) (i : S128x1024.Idx) : k0_pay2 x0 i = x0 i := rfl
/-- The same for the state block. -/
theorem pay3_eq (x1 : Blk) (i : S128x1024.Idx) : k0_pay3 x1 i = x1 i := rfl

/-- The initial-energy gate: `σ (x · Ei q + b q)`. -/
theorem pay4_at (x0 : Blk) (w : Vec Ideal S1024x1024 .bf16) (b : Vec Ideal S1x1024 .f32) (p : Fin 128) (q : Fin 1024) :
    k0_pay4 x0 w b (ix2 p q) = sigm (lin1 (rowOf x0 p) (matOf w) (brow b) q) := by
  unfold k0_pay4 k0_pay2
  dsimp only
  simp only [logistic, ValueIdx.addf_apply, Ideal.logistic_def, shapeCast_self, matmulSq_at, broadcastTo_1b_ab_apply,
    logistic_eq_sigm, ValueIdx.truncf_apply, lin1, dot, rowOf, matOf, brow]

/-- The ratio gate: `σ (x · Tr q + b q)`. -/
theorem pay5_at (x0 : Blk) (w : Vec Ideal S1024x1024 .f32) (b : Vec Ideal S1x1024 .f32) (p : Fin 128) (q : Fin 1024) :
    k0_pay5 x0 w b (ix2 p q) = sigm (lin1 (rowOf x0 p) (matOf w) (brow b) q) := by
  unfold k0_pay5
  simp only [logistic, ValueIdx.addf_apply, Ideal.logistic_def, shapeCast_self, matmulSq_at, broadcastTo_1b_ab_apply,
    logistic_eq_sigm, lin1, dot, rowOf, matOf, brow]

/-- The time update: `tanh ((x · Wtx q + h · Wth q) + b q)`. -/
theorem pay6_at (x0 x1 : Blk) (wx wh : Vec Ideal S1024x1024 .f32) (b : Vec Ideal S1x1024 .f32) (p : Fin 128) (q : Fin 1024) :
    k0_pay6 x0 x1 wx wh b (ix2 p q) = Ideal.tanh (lin2 (rowOf x0 p) (rowOf x1 p) (matOf wx) (matOf wh) (brow b) q) := by
  unfold k0_pay6
  simp only [tanh, ValueIdx.addf_apply, Ideal.tanh_def, shapeCast_self, matmulSq_at, broadcastTo_1b_ab_apply,
    lin2, dot, rowOf, matOf, brow]

/-- The two fused gates before their logistic, at column `j` of the [128, 2048] block. -/
theorem pay11_at (x0 x1 : Blk) (W1 W2 : Vec Ideal S2048x1024 .bf16) (b : Vec Ideal S1x2048 .f32) (p : Fin 128) (j : Fin 2048) :
    k0_pay11 (k0_pay2 x0) (k0_pay3 x1) W1 W2 b (ix2 p j)
      = ((∑ k : Fin 1024, x0 (ix2 p k) * W1 (ix2 j k)) + (∑ k : Fin 1024, x1 (ix2 p k) * W2 (ix2 j k))) + b (ix2 (0 : Fin 1) j) := by
  unfold k0_pay11 k0_pay2 k0_pay3
  dsimp only
  simp only [ValueIdx.addf_apply, shapeCast_self, matmulWide_at, broadcastTo_1b_ab_apply, ValueIdx.truncf_apply]

/-! ## The threshold and what is built on it -/

/-- The new time cell before the threshold, over any ratio block and update block. -/
theorem pay7_eq (x3 v20 v32 : Blk) (p : Fin 128) (q : Fin 1024) :
    k0_pay7 x3 v20 v32 (ix2 p q) = v20 (ix2 p q) * max (x3 (ix2 p q) + v32 (ix2 p q)) w0 - w1 := rfl

/-- The threshold: the comparison bit, widened and read as a signed integer, is `bit01` of the bit. -/
theorem pay8_eq (x3 v20 v32 : Blk) (p : Fin 128) (q : Fin 1024) :
    k0_pay8 x3 v20 v32 (ix2 p q) = bit01 (Ideal.cmp .ole (k0_pay7 x3 v20 v32 (ix2 p q)) w0) :=
  toInt_setWidth_bit _

/-- The stored time cell: `(1 − leap) · tcNew`. -/
theorem pay9_eq (x3 v20 v32 : Blk) (p : Fin 128) (q : Fin 1024) :
    k0_pay9 x3 v20 v32 (ix2 p q) = (w1 - k0_pay8 x3 v20 v32 (ix2 p q)) * k0_pay7 x3 v20 v32 (ix2 p q) := rfl

/-- The released energy: `leap · ex`. -/
theorem pay10_eq (x2 x3 v20 v32 : Blk) (p : Fin 128) (q : Fin 1024) :
    k0_pay10 x2 x3 v20 v32 (ix2 p q) = k0_pay8 x3 v20 v32 (ix2 p q) * x2 (ix2 p q) := rfl

section Point

variable (x0 x1 x2 x3 : Blk) (wr : Vec Ideal S1024x1024 .f32) (br : Vec Ideal S1x1024 .f32)
  (wx wh : Vec Ideal S1024x1024 .f32) (bt : Vec Ideal S1x1024 .f32)

/-- The new time cell before the threshold is `tcNew` of row `p`. -/
theorem tcn_at (p : Fin 128) (q : Fin 1024) :
    k0_pay7 x3 (k0_pay5 x0 wr br) (k0_pay6 x0 x1 wx wh bt) (ix2 p q)
      = tcNew (rowOf x0 p) (rowOf x1 p) (rowOf x3 p) (matOf wr) (brow br) (matOf wx) (matOf wh) (brow bt) q := by
  rw [pay7_eq, pay5_at, pay6_at]
  rfl

/-- The threshold is `leap` of row `p`. -/
theorem leap_at (p : Fin 128) (q : Fin 1024) :
    k0_pay8 x3 (k0_pay5 x0 wr br) (k0_pay6 x0 x1 wx wh bt) (ix2 p q)
      = leap (tcNew (rowOf x0 p) (rowOf x1 p) (rowOf x3 p) (matOf wr) (brow br) (matOf wx) (matOf wh) (brow bt)) q := by
  rw [pay8_eq, tcn_at]
  rfl

/-- THE TIME-CELL BLOCK at (p, q) is `cellTc` of row `p`. -/
theorem tc_block_at (p : Fin 128) (q : Fin 1024) :
    k0_pay9 x3 (k0_pay5 x0 wr br) (k0_pay6 x0 x1 wx wh bt) (ix2 p q)
      = cellTc (rowOf x0 p) (rowOf x1 p) (rowOf x3 p) (matOf wr) (brow br) (matOf wx) (matOf wh) (brow bt) q := by
  rw [pay9_eq, leap_at, tcn_at]
  rfl

/-- The released energy is `energy` of row `p`. -/
theorem energy_at (p : Fin 128) (q : Fin 1024) :
    k0_pay10 x2 x3 (k0_pay5 x0 wr br) (k0_pay6 x0 x1 wx wh bt) (ix2 p q)
      = energy (rowOf x2 p) (tcNew (rowOf x0 p) (rowOf x1 p) (rowOf x3 p) (matOf wr) (brow br) (matOf wx) (matOf wh) (brow bt)) q := by
  rw [pay10_eq, leap_at]
  rfl

variable (wei : Vec Ideal S1024x1024 .bf16) (bei : Vec Ideal S1x1024 .f32)
  (W1 W2 : Vec Ideal S2048x1024 .bf16) (bw : Vec Ideal S1x2048 .f32)

/-- THE EXCITED-CELL BLOCK at (p, q) is `cellEx` of row `p`: the absorb gate reads the first half of the fused block. -/
theorem ex_block_at (p : Fin 128) (q : Fin 1024) :
    k0_pay13 x2 x3 (k0_pay2 x0) (k0_pay3 x1) (k0_pay4 x0 wei bei) (k0_pay5 x0 wr br) (k0_pay6 x0 x1 wx wh bt) W1 W2 bw (ix2 p q)
      = cellEx (rowOf x0 p) (rowOf x1 p) (rowOf x2 p) (rowOf x3 p) (matOf wr) (brow br) (matOf wx) (matOf wh) (brow bt)
          (matOf wei) (brow bei) (matTop W1) (matTop W2) (browLo bw) q := by
  unfold k0_pay13
  simp only [logistic, ValueIdx.addf_apply, ValueIdx.subf_apply, ValueIdx.mulf_apply, ValueIdx.broadcast_apply, Ideal.logistic_def,
    logistic_eq_sigm]
  rw [slice2_axis1_apply 0 _ slices_S128x2048_o0_0_S128x1024 p q (lo q) (by simp), pay11_at, energy_at, leap_at, pay4_at]
  simp only [Ideal.ofBits_def, cellEx, exOut, lin2, dot, rowOf, matTop, browLo]

/-- The mixing gate reads the second half of the fused block: `σ (x · Hwx q + h · Hwh q + b q)`. -/
theorem hw_at (p : Fin 128) (q : Fin 1024) :
    k0_pay12 (k0_pay2 x0) (k0_pay3 x1) W1 W2 bw (ix2 p q)
      = sigm (lin2 (rowOf x0 p) (rowOf x1 p) (matBot W1) (matBot W2) (browHi bw) q) := by
  unfold k0_pay12
  simp only [logistic, Ideal.logistic_def, logistic_eq_sigm]
  rw [slice2_axis1_apply 1024 _ slices_S128x2048_o0_1024_S128x1024 p q (hi q) (by simp), pay11_at]
  simp only [lin2, dot, rowOf, matBot, browHi]

variable (wex weh : Vec Ideal S1024x1024 .bf16) (be : Vec Ideal S1x1024 .f32)

/-- The state row scaled by the released energy, in the matmul's float format: `h · energy`. -/
theorem hup_at (p : Fin 128) (k : Fin 1024) :
    k0_pay14 x1 x2 x3 (k0_pay5 x0 wr br) (k0_pay6 x0 x1 wx wh bt) (ix2 p k)
      = x1 (ix2 p k) * energy (rowOf x2 p) (tcNew (rowOf x0 p) (rowOf x1 p) (rowOf x3 p) (matOf wr) (brow br) (matOf wx) (matOf wh) (brow bt)) k := by
  show x1 (ix2 p k) * k0_pay10 x2 x3 (k0_pay5 x0 wr br) (k0_pay6 x0 x1 wx wh bt) (ix2 p k) = _
  rw [energy_at]

/-- THE STATE BLOCK at (p, q) is `cellH` of row `p`. -/
theorem h_block_at (p : Fin 128) (q : Fin 1024) :
    k0_pay1 x1 (k0_pay2 x0) (k0_pay12 (k0_pay2 x0) (k0_pay3 x1) W1 W2 bw)
        (k0_pay14 x1 x2 x3 (k0_pay5 x0 wr br) (k0_pay6 x0 x1 wx wh bt)) wex weh be (ix2 p q)
      = cellH (rowOf x0 p) (rowOf x1 p) (rowOf x2 p) (rowOf x3 p) (matOf wr) (brow br) (matOf wx) (matOf wh) (brow bt)
          (matOf wex) (matOf weh) (brow be) (matBot W1) (matBot W2) (browHi bw) q := by
  unfold k0_pay1
  simp only [tanh, ValueIdx.addf_apply, ValueIdx.subf_apply, ValueIdx.mulf_apply, ValueIdx.broadcast_apply, Ideal.tanh_def,
    shapeCast_self, matmulSq_at, broadcastTo_1b_ab_apply, pay2_eq, hw_at, hup_at, Ideal.ofBits_def,
    cellH, hNext, lin2, dot, rowOf, matOf, brow]

end Point

end Cert.KernelIdeal.BlockCell

end
-- ==== Proof.BlockReads.lean ====
/-
  What each input window hands the body at a grid point. The grid has 32 points, one per block of 128 rows of the batch.
  The four data windows (input, state, excited cell, time cell) move with the point: their block at point `t` is rows
  128 t … 128 t + 127 of the array, all 1024 columns, so entry (p, k) of the block is entry (128 t + p, k) of the array.
  The thirteen weight and bias windows do not move: their block is the whole array at every point. An element of a
  window's block sits at block index × block size + its coordinate inside the block, on each axis; the block indices are
  decided once over the 32 points.
-/
import proofs.«165451_j4337916969454_2_alg».proof.Proof.Gen.KernelIdeal.Frame
import Idealize.ShloMosaic.Lib.ValueIdx
import Idealize.ShloMosaic.Lib.Pipeline.Value

noncomputable section

namespace Cert.KernelIdeal.BlockReads

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-- Row `p` of the block of grid point `t` is row `128 t + p` of the batch. -/
def rowAt (t : Fin cfg0.N) (p : Fin 128) : Fin 4096 :=
  ⟨128 * t.val + p.val, by have hN : cfg0.N = 32 := N_0; have := t.isLt; have := p.isLt; omega⟩

@[simp] theorem rowAt_val (t : Fin cfg0.N) (p : Fin 128) : (rowAt t p).val = 128 * t.val + p.val := rfl

/-! ## The block indices over the grid -/

/-- A data window's block index at point `t` is (t, 0). -/
theorem idx_data : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = t.val ∧ win0_2.index t (1 : Fin 2) = 0 ∧
    win0_3.index t (0 : Fin 2) = t.val ∧ win0_3.index t (1 : Fin 2) = 0 :=
  (by decide +kernel : ∀ t : Fin grid0.N, _)

/-- A weight or bias window's block index is (0, 0) at every point. -/
theorem idx_whole : ∀ t : Fin cfg0.N,
    win0_4.index t (0 : Fin 2) = 0 ∧ win0_4.index t (1 : Fin 2) = 0 ∧
    win0_5.index t (0 : Fin 2) = 0 ∧ win0_5.index t (1 : Fin 2) = 0 ∧
    win0_6.index t (0 : Fin 2) = 0 ∧ win0_6.index t (1 : Fin 2) = 0 ∧
    win0_7.index t (0 : Fin 2) = 0 ∧ win0_7.index t (1 : Fin 2) = 0 ∧
    win0_8.index t (0 : Fin 2) = 0 ∧ win0_8.index t (1 : Fin 2) = 0 ∧
    win0_9.index t (0 : Fin 2) = 0 ∧ win0_9.index t (1 : Fin 2) = 0 ∧
    win0_10.index t (0 : Fin 2) = 0 ∧ win0_10.index t (1 : Fin 2) = 0 ∧
    win0_11.index t (0 : Fin 2) = 0 ∧ win0_11.index t (1 : Fin 2) = 0 ∧
    win0_12.index t (0 : Fin 2) = 0 ∧ win0_12.index t (1 : Fin 2) = 0 ∧
    win0_13.index t (0 : Fin 2) = 0 ∧ win0_13.index t (1 : Fin 2) = 0 ∧
    win0_14.index t (0 : Fin 2) = 0 ∧ win0_14.index t (1 : Fin 2) = 0 ∧
    win0_15.index t (0 : Fin 2) = 0 ∧ win0_15.index t (1 : Fin 2) = 0 ∧
    win0_16.index t (0 : Fin 2) = 0 ∧ win0_16.index t (1 : Fin 2) = 0 :=
  (by decide +kernel : ∀ t : Fin grid0.N, _)

/-! ## The data windows: 128 rows of the batch -/

/-- Entry (p, k) of data window 0's block at point `t` is entry (128 t + p, k) of argument 0. -/
theorem iblk0_at (t : Fin cfg0.N) (p : Fin 128) (k : Fin 1024) :
    (iblk m c 0 t : Vec Ideal S128x1024 .f32) (ix2 p k)
      = (m ((c : Thread nD τ).loc main_arg0) : S4096x1024.Idx → EReal) (ix2 (rowAt t p) k) := by
  obtain ⟨h0, h1, -⟩ := idx_data t
  unfold iblk
  rw [View.read_apply]
  show V m c main_arg0 _ = _
  rw [V_main_arg0]
  refine congrArg (m ((c : Thread nD τ).loc main_arg0) : S4096x1024.Idx → EReal) ?_
  funext a
  apply Fin.ext
  match a with
  | ⟨0, _⟩ => show win0_0.index t (0 : Fin 2) * 128 + 1 * p.val = 128 * t.val + p.val; rw [h0]; omega
  | ⟨1, _⟩ => show win0_0.index t (1 : Fin 2) * 1024 + 1 * k.val = k.val; rw [h1]; omega

/-- Entry (p, k) of data window 1's block at point `t` is entry (128 t + p, k) of argument 1. -/
theorem iblk1_at (t : Fin cfg0.N) (p : Fin 128) (k : Fin 1024) :
    (iblk m c 1 t : Vec Ideal S128x1024 .f32) (ix2 p k)
      = (m ((c : Thread nD τ).loc main_arg1) : S4096x1024.Idx → EReal) (ix2 (rowAt t p) k) := by
  obtain ⟨-, -, h0, h1, -⟩ := idx_data t
  unfold iblk
  rw [View.read_apply]
  show V m c main_arg1 _ = _
  rw [V_main_arg1]
  refine congrArg (m ((c : Thread nD τ).loc main_arg1) : S4096x1024.Idx → EReal) ?_
  funext a
  apply Fin.ext
  match a with
  | ⟨0, _⟩ => show win0_1.index t (0 : Fin 2) * 128 + 1 * p.val = 128 * t.val + p.val; rw [h0]; omega
  | ⟨1, _⟩ => show win0_1.index t (1 : Fin 2) * 1024 + 1 * k.val = k.val; rw [h1]; omega

/-- Entry (p, k) of data window 2's block at point `t` is entry (128 t + p, k) of argument 2. -/
theorem iblk2_at (t : Fin cfg0.N) (p : Fin 128) (k : Fin 1024) :
    (iblk m c 2 t : Vec Ideal S128x1024 .f32) (ix2 p k)
      = (m ((c : Thread nD τ).loc main_arg2) : S4096x1024.Idx → EReal) (ix2 (rowAt t p) k) := by
  obtain ⟨-, -, -, -, h0, h1, -⟩ := idx_data t
  unfold iblk
  rw [View.read_apply]
  show V m c main_arg2 _ = _
  rw [V_main_arg2]
  refine congrArg (m ((c : Thread nD τ).loc main_arg2) : S4096x1024.Idx → EReal) ?_
  funext a
  apply Fin.ext
  match a with
  | ⟨0, _⟩ => show win0_2.index t (0 : Fin 2) * 128 + 1 * p.val = 128 * t.val + p.val; rw [h0]; omega
  | ⟨1, _⟩ => show win0_2.index t (1 : Fin 2) * 1024 + 1 * k.val = k.val; rw [h1]; omega

/-- Entry (p, k) of data window 3's block at point `t` is entry (128 t + p, k) of argument 3. -/
theorem iblk3_at (t : Fin cfg0.N) (p : Fin 128) (k : Fin 1024) :
    (iblk m c 3 t : Vec Ideal S128x1024 .f32) (ix2 p k)
      = (m ((c : Thread nD τ).loc main_arg3) : S4096x1024.Idx → EReal) (ix2 (rowAt t p) k) := by
  obtain ⟨-, -, -, -, -, -, h0, h1⟩ := idx_data t
  unfold iblk
  rw [View.read_apply]
  show V m c main_arg3 _ = _
  rw [V_main_arg3]
  refine congrArg (m ((c : Thread nD τ).loc main_arg3) : S4096x1024.Idx → EReal) ?_
  funext a
  apply Fin.ext
  match a with
  | ⟨0, _⟩ => show win0_3.index t (0 : Fin 2) * 128 + 1 * p.val = 128 * t.val + p.val; rw [h0]; omega
  | ⟨1, _⟩ => show win0_3.index t (1 : Fin 2) * 1024 + 1 * k.val = k.val; rw [h1]; omega

/-! ## The weight and bias windows: the whole array at every point -/

/-- Window 4 hands the body the initial-energy weight whole, as the region finds it. -/
theorem iblk4_eq (t : Fin cfg0.N) :
    (iblk m c 4 t : Vec Ideal S1024x1024 .bf16) = (V m c main_v18 : S1024x1024.Idx → EReal) := by
  obtain ⟨h0, h1, -⟩ := idx_whole t
  funext y
  unfold iblk
  rw [View.read_apply]
  show V m c main_v18 _ = _
  refine congrArg (V m c main_v18 : S1024x1024.Idx → EReal) ?_
  funext a
  apply Fin.ext
  match a with
  | ⟨0, _⟩ => show win0_4.index t (0 : Fin 2) * 1024 + 1 * (y 0).val = (y 0).val; rw [h0]; omega
  | ⟨1, _⟩ => show win0_4.index t (1 : Fin 2) * 1024 + 1 * (y 1).val = (y 1).val; rw [h1]; omega

/-- Window 5 hands the body the initial-energy bias whole, as the region finds it. -/
theorem iblk5_eq (t : Fin cfg0.N) :
    (iblk m c 5 t : Vec Ideal S1x1024 .f32) = (V m c main_v19 : S1x1024.Idx → EReal) := by
  obtain ⟨-, -, h0, h1, -⟩ := idx_whole t
  funext y
  unfold iblk
  rw [View.read_apply]
  show V m c main_v19 _ = _
  refine congrArg (V m c main_v19 : S1x1024.Idx → EReal) ?_
  funext a
  apply Fin.ext
  match a with
  | ⟨0, _⟩ => show win0_5.index t (0 : Fin 2) * 1 + 1 * (y 0).val = (y 0).val; rw [h0]; omega
  | ⟨1, _⟩ => show win0_5.index t (1 : Fin 2) * 1024 + 1 * (y 1).val = (y 1).val; rw [h1]; omega

/-- Window 6 hands the body the ratio weight whole, as the region finds it. -/
theorem iblk6_eq (t : Fin cfg0.N) :
    (iblk m c 6 t : Vec Ideal S1024x1024 .f32) = (V m c main_arg12 : S1024x1024.Idx → EReal) := by
  obtain ⟨-, -, -, -, h0, h1, -⟩ := idx_whole t
  funext y
  unfold iblk
  rw [View.read_apply]
  show V m c main_arg12 _ = _
  refine congrArg (V m c main_arg12 : S1024x1024.Idx → EReal) ?_
  funext a
  apply Fin.ext
  match a with
  | ⟨0, _⟩ => show win0_6.index t (0 : Fin 2) * 1024 + 1 * (y 0).val = (y 0).val; rw [h0]; omega
  | ⟨1, _⟩ => show win0_6.index t (1 : Fin 2) * 1024 + 1 * (y 1).val = (y 1).val; rw [h1]; omega

/-- Window 7 hands the body the ratio bias whole, as the region finds it. -/
theorem iblk7_eq (t : Fin cfg0.N) :
    (iblk m c 7 t : Vec Ideal S1x1024 .f32) = (V m c main_v20 : S1x1024.Idx → EReal) := by
  obtain ⟨-, -, -, -, -, -, h0, h1, -⟩ := idx_whole t
  funext y
  unfold iblk
  rw [View.read_apply]
  show V m c main_v20 _ = _
  refine congrArg (V m c main_v20 : S1x1024.Idx → EReal) ?_
  funext a
  apply Fin.ext
  match a with
  | ⟨0, _⟩ => show win0_7.index t (0 : Fin 2) * 1 + 1 * (y 0).val = (y 0).val; rw [h0]; omega
  | ⟨1, _⟩ => show win0_7.index t (1 : Fin 2) * 1024 + 1 * (y 1).val = (y 1).val; rw [h1]; omega

/-- Window 8 hands the body the time weight's input half whole, as the region finds it. -/
theorem iblk8_eq (t : Fin cfg0.N) :
    (iblk m c 8 t : Vec Ideal S1024x1024 .f32) = (V m c main_v0 : S1024x1024.Idx → EReal) := by
  obtain ⟨-, -, -, -, -, -, -, -, h0, h1, -⟩ := idx_whole t
  funext y
  unfold iblk
  rw [View.read_apply]
  show V m c main_v0 _ = _
  refine congrArg (V m c main_v0 : S1024x1024.Idx → EReal) ?_
  funext a
  apply Fin.ext
  match a with
  | ⟨0, _⟩ => show win0_8.index t (0 : Fin 2) * 1024 + 1 * (y 0).val = (y 0).val; rw [h0]; omega
  | ⟨1, _⟩ => show win0_8.index t (1 : Fin 2) * 1024 + 1 * (y 1).val = (y 1).val; rw [h1]; omega

/-- Window 9 hands the body the time weight's state half whole, as the region finds it. -/
theorem iblk9_eq (t : Fin cfg0.N) :
    (iblk m c 9 t : Vec Ideal S1024x1024 .f32) = (V m c main_v1 : S1024x1024.Idx → EReal) := by
  obtain ⟨-, -, -, -, -, -, -, -, -, -, h0, h1, -⟩ := idx_whole t
  funext y
  unfold iblk
  rw [View.read_apply]
  show V m c main_v1 _ = _
  refine congrArg (V m c main_v1 : S1024x1024.Idx → EReal) ?_
  funext a
  apply Fin.ext
  match a with
  | ⟨0, _⟩ => show win0_9.index t (0 : Fin 2) * 1024 + 1 * (y 0).val = (y 0).val; rw [h0]; omega
  | ⟨1, _⟩ => show win0_9.index t (1 : Fin 2) * 1024 + 1 * (y 1).val = (y 1).val; rw [h1]; omega

/-- Window 10 hands the body the time bias whole, as the region finds it. -/
theorem iblk10_eq (t : Fin cfg0.N) :
    (iblk m c 10 t : Vec Ideal S1x1024 .f32) = (V m c main_v21 : S1x1024.Idx → EReal) := by
  obtain ⟨-, -, -, -, -, -, -, -, -, -, -, -, h0, h1, -⟩ := idx_whole t
  funext y
  unfold iblk
  rw [View.read_apply]
  show V m c main_v21 _ = _
  refine congrArg (V m c main_v21 : S1x1024.Idx → EReal) ?_
  funext a
  apply Fin.ext
  match a with
  | ⟨0, _⟩ => show win0_10.index t (0 : Fin 2) * 1 + 1 * (y 0).val = (y 0).val; rw [h0]; omega
  | ⟨1, _⟩ => show win0_10.index t (1 : Fin 2) * 1024 + 1 * (y 1).val = (y 1).val; rw [h1]; omega

/-- Window 11 hands the body the fused absorb / mixing weight, input half whole, as the region finds it. -/
theorem iblk11_eq (t : Fin cfg0.N) :
    (iblk m c 11 t : Vec Ideal S2048x1024 .bf16) = (V m c main_v10 : S2048x1024.Idx → EReal) := by
  obtain ⟨-, -, -, -, -, -, -, -, -, -, -, -, -, -, h0, h1, -⟩ := idx_whole t
  funext y
  unfold iblk
  rw [View.read_apply]
  show V m c main_v10 _ = _
  refine congrArg (V m c main_v10 : S2048x1024.Idx → EReal) ?_
  funext a
  apply Fin.ext
  match a with
  | ⟨0, _⟩ => show win0_11.index t (0 : Fin 2) * 2048 + 1 * (y 0).val = (y 0).val; rw [h0]; omega
  | ⟨1, _⟩ => show win0_11.index t (1 : Fin 2) * 1024 + 1 * (y 1).val = (y 1).val; rw [h1]; omega

/-- Window 12 hands the body the fused absorb / mixing weight, state half whole, as the region finds it. -/
theorem iblk12_eq (t : Fin cfg0.N) :
    (iblk m c 12 t : Vec Ideal S2048x1024 .bf16) = (V m c main_v11 : S2048x1024.Idx → EReal) := by
  obtain ⟨-, -, -, -, -, -, -, -, -, -, -, -, -, -, -, -, h0, h1, -⟩ := idx_whole t
  funext y
  unfold iblk
  rw [View.read_apply]
  show V m c main_v11 _ = _
  refine congrArg (V m c main_v11 : S2048x1024.Idx → EReal) ?_
  funext a
  apply Fin.ext
  match a with
  | ⟨0, _⟩ => show win0_12.index t (0 : Fin 2) * 2048 + 1 * (y 0).val = (y 0).val; rw [h0]; omega
  | ⟨1, _⟩ => show win0_12.index t (1 : Fin 2) * 1024 + 1 * (y 1).val = (y 1).val; rw [h1]; omega

/-- Window 13 hands the body the fused absorb / mixing bias whole, as the region finds it. -/
theorem iblk13_eq (t : Fin cfg0.N) :
    (iblk m c 13 t : Vec Ideal S1x2048 .f32) = (V m c main_v13 : S1x2048.Idx → EReal) := by
  obtain ⟨-, -, -, -, -, -, -, -, -, -, -, -, -, -, -, -, -, -, h0, h1, -⟩ := idx_whole t
  funext y
  unfold iblk
  rw [View.read_apply]
  show V m c main_v13 _ = _
  refine congrArg (V m c main_v13 : S1x2048.Idx → EReal) ?_
  funext a
  apply Fin.ext
  match a with
  | ⟨0, _⟩ => show win0_13.index t (0 : Fin 2) * 1 + 1 * (y 0).val = (y 0).val; rw [h0]; omega
  | ⟨1, _⟩ => show win0_13.index t (1 : Fin 2) * 2048 + 1 * (y 1).val = (y 1).val; rw [h1]; omega

/-- Window 14 hands the body the state-candidate weight's input half whole, as the region finds it. -/
theorem iblk14_eq (t : Fin cfg0.N) :
    (iblk m c 14 t : Vec Ideal S1024x1024 .bf16) = (V m c main_v16 : S1024x1024.Idx → EReal) := by
  obtain ⟨-, -, -, -, -, -, -, -, -, -, -, -, -, -, -, -, -, -, -, -, h0, h1, -⟩ := idx_whole t
  funext y
  unfold iblk
  rw [View.read_apply]
  show V m c main_v16 _ = _
  refine congrArg (V m c main_v16 : S1024x1024.Idx → EReal) ?_
  funext a
  apply Fin.ext
  match a with
  | ⟨0, _⟩ => show win0_14.index t (0 : Fin 2) * 1024 + 1 * (y 0).val = (y 0).val; rw [h0]; omega
  | ⟨1, _⟩ => show win0_14.index t (1 : Fin 2) * 1024 + 1 * (y 1).val = (y 1).val; rw [h1]; omega

/-- Window 15 hands the body the state-candidate weight's state half whole, as the region finds it. -/
theorem iblk15_eq (t : Fin cfg0.N) :
    (iblk m c 15 t : Vec Ideal S1024x1024 .bf16) = (V m c main_v17 : S1024x1024.Idx → EReal) := by
  obtain ⟨-, -, -, -, -, -, -, -, -, -, -, -, -, -, -, -, -, -, -, -, -, -, h0, h1, -⟩ := idx_whole t
  funext y
  unfold iblk
  rw [View.read_apply]
  show V m c main_v17 _ = _
  refine congrArg (V m c main_v17 : S1024x1024.Idx → EReal) ?_
  funext a
  apply Fin.ext
  match a with
  | ⟨0, _⟩ => show win0_15.index t (0 : Fin 2) * 1024 + 1 * (y 0).val = (y 0).val; rw [h0]; omega
  | ⟨1, _⟩ => show win0_15.index t (1 : Fin 2) * 1024 + 1 * (y 1).val = (y 1).val; rw [h1]; omega

/-- Window 16 hands the body the state-candidate bias whole, as the region finds it. -/
theorem iblk16_eq (t : Fin cfg0.N) :
    (iblk m c 16 t : Vec Ideal S1x1024 .f32) = (V m c main_v22 : S1x1024.Idx → EReal) := by
  obtain ⟨-, -, -, -, -, -, -, -, -, -, -, -, -, -, -, -, -, -, -, -, -, -, -, -, h0, h1⟩ := idx_whole t
  funext y
  unfold iblk
  rw [View.read_apply]
  show V m c main_v22 _ = _
  refine congrArg (V m c main_v22 : S1x1024.Idx → EReal) ?_
  funext a
  apply Fin.ext
  match a with
  | ⟨0, _⟩ => show win0_16.index t (0 : Fin 2) * 1 + 1 * (y 0).val = (y 0).val; rw [h0]; omega
  | ⟨1, _⟩ => show win0_16.index t (1 : Fin 2) * 1024 + 1 * (y 1).val = (y 1).val; rw [h1]; omega

end Cert.KernelIdeal.BlockReads

end
-- ==== Proof.StagedArrays.lean ====
/-
  The arrays the host prepares before the kernel's one region, read at an index.

  Before the region is entered the program slices the [1024, 2048] weight matrices into their two [1024, 1024] column
  halves, narrows some of them to bf16 (the identity on the extended reals), stacks two halves row-wise into a
  [2048, 1024] matrix, joins two biases into one [2048] vector, and views each [n] vector as a [1, n] row. Each lemma
  here says what one of those prepared arrays holds at an index given by coordinates, in terms of the launch contents
  of the program's arguments: a column slice from offset 0 reads column `lo k` and from offset 1024 column `hi k`; a
  row-wise stack reads its first piece on rows `lo q` and its second on rows `hi q`; a [1, n] view of a vector reads the
  vector at the column.
-/
import proofs.«165451_j4337916969454_2_alg».proof.Proof.Gen.KernelIdeal.Frame
import proofs.«165451_j4337916969454_2_alg».proof.Proof.Halves
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Staged

open Cert.KernelIdeal Cert.KernelIdeal.Gen Idealize.ShloMosaic Idealize.ShloMosaic.TcCoe Idealize.SL.Sem
open Idealize.ShloMosaic.ValueIdx Cert.Cell

/-! ## The operations read at an index, over any arrays of the program's shapes -/

/-- A narrowing to bf16 is the identity on the extended reals. -/
theorem read_cast (W : S1024x1024.Idx → EReal) (q k : Fin 1024) :
    (truncf (F := Ideal) .bf16 (W : FVec Ideal S1024x1024 .f32) bitsLt_bf16_f32 : S1024x1024.Idx → EReal) (ix2 q k) = W (ix2 q k) := rfl

/-- A [1024] vector viewed as a [1, 1024] row reads the vector at the column. -/
theorem read_row (b : S1024.Idx → EReal) (u : Fin 1) (q : Fin 1024) :
    shapeCast S1x1024 b shapeCasts_S1024_S1x1024 (ix2 u q) = b (ix1 q) :=
  shapeCast_a_1a_apply b shapeCasts_S1024_S1x1024 u q

/-- The first 1024 columns of a [1024, 2048] matrix: column `k` of the slice is column `lo k`. -/
theorem read_lo (W : S1024x2048.Idx → EReal) (q k : Fin 1024) :
    extractStridedSlice S1024x1024 ![0, 0] W slices_S1024x2048_S1024x1024_0_0 (ix2 q k) = W (ix2 q (lo k)) :=
  slice2_axis1_apply 0 W slices_S1024x2048_S1024x1024_0_0 q k (lo k) (by show k.val = 0 + k.val; omega)

/-- The last 1024 columns: column `k` of the slice is column `hi k`. -/
theorem read_hi (W : S1024x2048.Idx → EReal) (q k : Fin 1024) :
    extractStridedSlice S1024x1024 ![0, 1024] W slices_S1024x2048_S1024x1024_0_1024 (ix2 q k) = W (ix2 q (hi k)) :=
  slice2_axis1_apply 1024 W slices_S1024x2048_S1024x1024_0_1024 q k (hi k) rfl

/-- Two [1024, 1024] matrices stacked row-wise: rows `lo q` of the stack are the rows of the first. -/
theorem read_stack_lo (X Y : S1024x1024.Idx → EReal) (q k : Fin 1024) :
    concatenate S2048x1024 0 [⟨S1024x1024, X⟩, ⟨S1024x1024, Y⟩] concatenates_S1024x1024_S1024x1024_S2048x1024_d0 (ix2 (lo q) k)
      = X (ix2 q k) :=
  concatenate_pair_apply_left (0 : Fin 2) X Y concatenates_S1024x1024_S1024x1024_S2048x1024_d0 (ix2 (lo q) k) rfl (ix2 q k)
    (fun b => match b with | ⟨0, _⟩ => rfl | ⟨1, _⟩ => rfl)

/-- Rows `hi q` of the stack are the rows of the second. -/
theorem read_stack_hi (X Y : S1024x1024.Idx → EReal) (q k : Fin 1024) :
    concatenate S2048x1024 0 [⟨S1024x1024, X⟩, ⟨S1024x1024, Y⟩] concatenates_S1024x1024_S1024x1024_S2048x1024_d0 (ix2 (hi q) k)
      = Y (ix2 q k) :=
  concatenate_pair_apply_right (0 : Fin 2) X Y concatenates_S1024x1024_S1024x1024_S2048x1024_d0 (ix2 (hi q) k) rfl rfl (ix2 q k)
    (fun b => match b with | ⟨0, _⟩ => fun h => absurd rfl h | ⟨1, _⟩ => fun _ => rfl)
    (show q.val + 1024 = 1024 + q.val from Nat.add_comm _ _)

/-- Two [1024] vectors joined: entries `lo q` of the join are the entries of the first. -/
theorem read_join_lo (a b : S1024.Idx → EReal) (q : Fin 1024) :
    concatenate S2048 0 [⟨S1024, a⟩, ⟨S1024, b⟩] concatenates_S1024_S1024_S2048_d0 (ix1 (lo q)) = a (ix1 q) :=
  concatenate_pair_apply_left (0 : Fin 1) a b concatenates_S1024_S1024_S2048_d0 (ix1 (lo q)) rfl (ix1 q)
    (fun b => match b with | ⟨0, _⟩ => rfl)

/-- Entries `hi q` of the join are the entries of the second. -/
theorem read_join_hi (a b : S1024.Idx → EReal) (q : Fin 1024) :
    concatenate S2048 0 [⟨S1024, a⟩, ⟨S1024, b⟩] concatenates_S1024_S1024_S2048_d0 (ix1 (hi q)) = b (ix1 q) :=
  concatenate_pair_apply_right (0 : Fin 1) a b concatenates_S1024_S1024_S2048_d0 (ix1 (hi q)) rfl rfl (ix1 q)
    (fun b => match b with | ⟨0, _⟩ => fun h => absurd rfl h)
    (show q.val + 1024 = 1024 + q.val from Nat.add_comm _ _)

/-- A [2048] vector viewed as a [1, 2048] row reads the vector at the column. -/
theorem read_row2 (b : S2048.Idx → EReal) (u : Fin 1) (j : Fin 2048) :
    shapeCast S1x2048 b shapeCasts_S2048_S1x2048 (ix2 u j) = b (ix1 j) :=
  shapeCast_a_1a_apply b shapeCasts_S2048_S1x2048 u j

/-! ## The prepared arrays as terms over the launch contents

Core `c`'s buffer when the region is entered is the fold of the host operations over the launch contents; at one
result buffer the fold computes to the nest of the operations that produced it. -/

section
variable (m : (ℓ : Loc nD τ sig) → Buf (Elt Ideal) ℓ) (c : Dev nD)

set_option quotPrecheck false

local notation "A4" => (m ((c : Thread nD τ).loc main_arg4) : S1024x2048.Idx → EReal)
local notation "A5" => (m ((c : Thread nD τ).loc main_arg5) : S1024.Idx → EReal)
local notation "A6" => (m ((c : Thread nD τ).loc main_arg6) : S1024x2048.Idx → EReal)
local notation "A7" => (m ((c : Thread nD τ).loc main_arg7) : S1024.Idx → EReal)
local notation "A8" => (m ((c : Thread nD τ).loc main_arg8) : S1024x2048.Idx → EReal)
local notation "A9" => (m ((c : Thread nD τ).loc main_arg9) : S1024.Idx → EReal)
local notation "A10" => (m ((c : Thread nD τ).loc main_arg10) : S1024x2048.Idx → EReal)
local notation "A11" => (m ((c : Thread nD τ).loc main_arg11) : S1024.Idx → EReal)
local notation "A13" => (m ((c : Thread nD τ).loc main_arg13) : S1024.Idx → EReal)
local notation "A14" => (m ((c : Thread nD τ).loc main_arg14) : S1024x1024.Idx → EReal)
local notation "A15" => (m ((c : Thread nD τ).loc main_arg15) : S1024.Idx → EReal)

/-- The first column half of a weight matrix, narrowed to bf16. -/
local notation "castLo" W => (truncf (F := Ideal) .bf16
  (extractStridedSlice S1024x1024 ![0, 0] W slices_S1024x2048_S1024x1024_0_0 : FVec Ideal S1024x1024 .f32) bitsLt_bf16_f32 : S1024x1024.Idx → EReal)
/-- The second column half, narrowed to bf16. -/
local notation "castHi" W => (truncf (F := Ideal) .bf16
  (extractStridedSlice S1024x1024 ![0, 1024] W slices_S1024x2048_S1024x1024_0_1024 : FVec Ideal S1024x1024 .f32) bitsLt_bf16_f32 : S1024x1024.Idx → EReal)

theorem V_v18_eq : (V m c main_v18 : S1024x1024.Idx → EReal)
    = truncf (F := Ideal) .bf16 (A14 : FVec Ideal S1024x1024 .f32) bitsLt_bf16_f32 := by
  dsimp only [Gen.V, Gen.hostOps0]; after_results

theorem V_v19_eq : (V m c main_v19 : S1x1024.Idx → EReal) = shapeCast S1x1024 A15 shapeCasts_S1024_S1x1024 := by
  dsimp only [Gen.V, Gen.hostOps0]; after_results; rfl

theorem V_v20_eq : (V m c main_v20 : S1x1024.Idx → EReal) = shapeCast S1x1024 A13 shapeCasts_S1024_S1x1024 := by
  dsimp only [Gen.V, Gen.hostOps0]; after_results; rfl

theorem V_v21_eq : (V m c main_v21 : S1x1024.Idx → EReal) = shapeCast S1x1024 A5 shapeCasts_S1024_S1x1024 := by
  dsimp only [Gen.V, Gen.hostOps0]; after_results; rfl

theorem V_v22_eq : (V m c main_v22 : S1x1024.Idx → EReal) = shapeCast S1x1024 A9 shapeCasts_S1024_S1x1024 := by
  dsimp only [Gen.V, Gen.hostOps0]; after_results; rfl

theorem V_v0_eq : (V m c main_v0 : S1024x1024.Idx → EReal)
    = extractStridedSlice S1024x1024 ![0, 0] A4 slices_S1024x2048_S1024x1024_0_0 := by
  dsimp only [Gen.V, Gen.hostOps0]; after_results

theorem V_v1_eq : (V m c main_v1 : S1024x1024.Idx → EReal)
    = extractStridedSlice S1024x1024 ![0, 1024] A4 slices_S1024x2048_S1024x1024_0_1024 := by
  dsimp only [Gen.V, Gen.hostOps0]; after_results

theorem V_v16_eq : (V m c main_v16 : S1024x1024.Idx → EReal) = castLo A8 := by
  dsimp only [Gen.V, Gen.hostOps0]; after_results

theorem V_v17_eq : (V m c main_v17 : S1024x1024.Idx → EReal) = castHi A8 := by
  dsimp only [Gen.V, Gen.hostOps0]; after_results

theorem V_v10_eq : (V m c main_v10 : S2048x1024.Idx → EReal)
    = concatenate S2048x1024 0 [⟨S1024x1024, castLo A6⟩, ⟨S1024x1024, castLo A10⟩]
        concatenates_S1024x1024_S1024x1024_S2048x1024_d0 := by
  dsimp only [Gen.V, Gen.hostOps0]; after_results

theorem V_v11_eq : (V m c main_v11 : S2048x1024.Idx → EReal)
    = concatenate S2048x1024 0 [⟨S1024x1024, castHi A6⟩, ⟨S1024x1024, castHi A10⟩]
        concatenates_S1024x1024_S1024x1024_S2048x1024_d0 := by
  dsimp only [Gen.V, Gen.hostOps0]; after_results

theorem V_v13_eq : (V m c main_v13 : S1x2048.Idx → EReal)
    = shapeCast S1x2048 (concatenate S2048 0 [⟨S1024, A7⟩, ⟨S1024, A11⟩] concatenates_S1024_S1024_S2048_d0)
        shapeCasts_S2048_S1x2048 := by
  dsimp only [Gen.V, Gen.hostOps0]; after_results; rfl

/-! ## The prepared arrays read at an index -/

/-- A launched [1024, 1024] matrix, narrowed: entry `(q, k)` is the launched entry. -/
theorem V_v18 (q k : Fin 1024) : (V m c main_v18 : S1024x1024.Idx → EReal) (ix2 q k) = A14 (ix2 q k) := by
  rw [V_v18_eq]; rfl

/-- Four launched [1024] vectors viewed as rows: column `q` is entry `q` of the launched vector, whatever the unit
    row coordinate is written as … -/
theorem V_v19_row (u : Fin 1) (q : Fin 1024) : (V m c main_v19 : S1x1024.Idx → EReal) (ix2 u q) = A15 (ix1 q) := by
  rw [V_v19_eq]; exact read_row _ u q
theorem V_v20_row (u : Fin 1) (q : Fin 1024) : (V m c main_v20 : S1x1024.Idx → EReal) (ix2 u q) = A13 (ix1 q) := by
  rw [V_v20_eq]; exact read_row _ u q
theorem V_v21_row (u : Fin 1) (q : Fin 1024) : (V m c main_v21 : S1x1024.Idx → EReal) (ix2 u q) = A5 (ix1 q) := by
  rw [V_v21_eq]; exact read_row _ u q
theorem V_v22_row (u : Fin 1) (q : Fin 1024) : (V m c main_v22 : S1x1024.Idx → EReal) (ix2 u q) = A9 (ix1 q) := by
  rw [V_v22_eq]; exact read_row _ u q

/-- … in particular at row `0`. -/
theorem V_v19 (q : Fin 1024) : (V m c main_v19 : S1x1024.Idx → EReal) (ix2 (0 : Fin 1) q) = A15 (ix1 q) := V_v19_row m c 0 q
theorem V_v20 (q : Fin 1024) : (V m c main_v20 : S1x1024.Idx → EReal) (ix2 (0 : Fin 1) q) = A13 (ix1 q) := V_v20_row m c 0 q
theorem V_v21 (q : Fin 1024) : (V m c main_v21 : S1x1024.Idx → EReal) (ix2 (0 : Fin 1) q) = A5 (ix1 q) := V_v21_row m c 0 q
theorem V_v22 (q : Fin 1024) : (V m c main_v22 : S1x1024.Idx → EReal) (ix2 (0 : Fin 1) q) = A9 (ix1 q) := V_v22_row m c 0 q

/-- The two column halves of one weight matrix. -/
theorem V_v0 (q k : Fin 1024) : (V m c main_v0 : S1024x1024.Idx → EReal) (ix2 q k) = A4 (ix2 q (lo k)) := by
  rw [V_v0_eq]; exact read_lo _ q k
theorem V_v1 (q k : Fin 1024) : (V m c main_v1 : S1024x1024.Idx → EReal) (ix2 q k) = A4 (ix2 q (hi k)) := by
  rw [V_v1_eq]; exact read_hi _ q k

/-- The two column halves of another, narrowed. -/
theorem V_v16 (q k : Fin 1024) : (V m c main_v16 : S1024x1024.Idx → EReal) (ix2 q k) = A8 (ix2 q (lo k)) := by
  rw [V_v16_eq]; exact (read_cast _ q k).trans (read_lo _ q k)
theorem V_v17 (q k : Fin 1024) : (V m c main_v17 : S1024x1024.Idx → EReal) (ix2 q k) = A8 (ix2 q (hi k)) := by
  rw [V_v17_eq]; exact (read_cast _ q k).trans (read_hi _ q k)

/-- The first column halves of two weight matrices, narrowed and stacked row-wise. -/
theorem V_v10_lo (q k : Fin 1024) : (V m c main_v10 : S2048x1024.Idx → EReal) (ix2 (lo q) k) = A6 (ix2 q (lo k)) := by
  rw [V_v10_eq]; exact (read_stack_lo _ _ q k).trans ((read_cast _ q k).trans (read_lo _ q k))
theorem V_v10_hi (q k : Fin 1024) : (V m c main_v10 : S2048x1024.Idx → EReal) (ix2 (hi q) k) = A10 (ix2 q (lo k)) := by
  rw [V_v10_eq]; exact (read_stack_hi _ _ q k).trans ((read_cast _ q k).trans (read_lo _ q k))

/-- Their second column halves, narrowed and stacked row-wise. -/
theorem V_v11_lo (q k : Fin 1024) : (V m c main_v11 : S2048x1024.Idx → EReal) (ix2 (lo q) k) = A6 (ix2 q (hi k)) := by
  rw [V_v11_eq]; exact (read_stack_lo _ _ q k).trans ((read_cast _ q k).trans (read_hi _ q k))
theorem V_v11_hi (q k : Fin 1024) : (V m c main_v11 : S2048x1024.Idx → EReal) (ix2 (hi q) k) = A10 (ix2 q (hi k)) := by
  rw [V_v11_eq]; exact (read_stack_hi _ _ q k).trans ((read_cast _ q k).trans (read_hi _ q k))

/-- Two launched [1024] vectors joined and viewed as one [1, 2048] row, at any unit row coordinate … -/
theorem V_v13_lo_row (u : Fin 1) (q : Fin 1024) : (V m c main_v13 : S1x2048.Idx → EReal) (ix2 u (lo q)) = A7 (ix1 q) := by
  rw [V_v13_eq]; exact (read_row2 _ u (lo q)).trans (read_join_lo _ _ q)
theorem V_v13_hi_row (u : Fin 1) (q : Fin 1024) : (V m c main_v13 : S1x2048.Idx → EReal) (ix2 u (hi q)) = A11 (ix1 q) := by
  rw [V_v13_eq]; exact (read_row2 _ u (hi q)).trans (read_join_hi _ _ q)

/-- … in particular at row `0`. -/
theorem V_v13_lo (q : Fin 1024) : (V m c main_v13 : S1x2048.Idx → EReal) (ix2 (0 : Fin 1) (lo q)) = A7 (ix1 q) := V_v13_lo_row m c 0 q
theorem V_v13_hi (q : Fin 1024) : (V m c main_v13 : S1x2048.Idx → EReal) (ix2 (0 : Fin 1) (hi q)) = A11 (ix1 q) := V_v13_hi_row m c 0 q

end

end Cert.KernelIdeal.Staged

end
-- ==== Proof.WholeArrays.lean ====
/-
  From the 32 blocks to the three result arrays. At grid point `t` the body sees rows 128 t … 128 t + 127 of the four data
  arrays and, whole, the weights as the host prepared them: the square weights as they are (a change of float format is
  the identity), each wide [1024, 2048] weight as its two column halves, the absorb and mixing gates' halves stacked into
  one [2048, 1024] pair, the biases as [1, n] rows. So every reader the block-level lemmas use — a row of a data block, a
  weight block as a matrix, a bias block as a row — is the corresponding reader of the ARGUMENT arrays (`row*`, `w*`
  below), and the block the point writes back is rows 128 t … 128 t + 127 of ONE function of the sixteen arguments: `arrH`,
  `arrEx`, `arrTc` of `CellArrays`. Row `r` of each result is written by the point `r / 128`, and by no other, so the 32
  blocks cover the array and the array after the run is that function.
-/
import proofs.«165451_j4337916969454_2_alg».proof.Proof.ValueBlocks
import proofs.«165451_j4337916969454_2_alg».proof.Proof.BlockCell
import proofs.«165451_j4337916969454_2_alg».proof.Proof.BlockReads
import proofs.«165451_j4337916969454_2_alg».proof.Proof.StagedArrays
import proofs.«165451_j4337916969454_2_alg».proof.Proof.CellArrays

noncomputable section

namespace Cert.KernelIdeal.Whole

open Cert.KernelIdeal Cert.KernelIdeal.Gen Idealize.ShloMosaic Idealize.ShloMosaic.TcCoe Idealize.SL.Sem
open Idealize.ShloMosaic.ValueIdx Cert.Cell Cert.KernelIdeal.BlockCell Cert.KernelIdeal.BlockReads Cert.KernelIdeal.Staged
open Idealize.ShloMosaic.Pipeline (Dat)

variable (m : (ℓ : Loc nD τ sig) → Buf (Elt Ideal) ℓ) (ρ : Dev nD → PrngReg) (c : Dev nD)

set_option quotPrecheck false
local notation "A0" => (m ((c : Thread nD τ).loc main_arg0) : S4096x1024.Idx → EReal)
local notation "A1" => (m ((c : Thread nD τ).loc main_arg1) : S4096x1024.Idx → EReal)
local notation "A2" => (m ((c : Thread nD τ).loc main_arg2) : S4096x1024.Idx → EReal)
local notation "A3" => (m ((c : Thread nD τ).loc main_arg3) : S4096x1024.Idx → EReal)
local notation "A4" => (m ((c : Thread nD τ).loc main_arg4) : S1024x2048.Idx → EReal)
local notation "A5" => (m ((c : Thread nD τ).loc main_arg5) : S1024.Idx → EReal)
local notation "A6" => (m ((c : Thread nD τ).loc main_arg6) : S1024x2048.Idx → EReal)
local notation "A7" => (m ((c : Thread nD τ).loc main_arg7) : S1024.Idx → EReal)
local notation "A8" => (m ((c : Thread nD τ).loc main_arg8) : S1024x2048.Idx → EReal)
local notation "A9" => (m ((c : Thread nD τ).loc main_arg9) : S1024.Idx → EReal)
local notation "A10" => (m ((c : Thread nD τ).loc main_arg10) : S1024x2048.Idx → EReal)
local notation "A11" => (m ((c : Thread nD τ).loc main_arg11) : S1024.Idx → EReal)
local notation "A12" => (m ((c : Thread nD τ).loc main_arg12) : S1024x1024.Idx → EReal)
local notation "A13" => (m ((c : Thread nD τ).loc main_arg13) : S1024.Idx → EReal)
local notation "A14" => (m ((c : Thread nD τ).loc main_arg14) : S1024x1024.Idx → EReal)
local notation "A15" => (m ((c : Thread nD τ).loc main_arg15) : S1024.Idx → EReal)

/-! ## The readers of a point's blocks are the readers of the arguments -/

/-- Row `p` of data window 0's block at point `t` is row `128 t + p` of argument 0. -/
theorem row0 (t : Fin cfg0.N) (p : Fin 128) : rowOf (R := 128) (iblk m c 0 t : Vec Ideal S128x1024 .f32) p = rowOf (R := 4096) A0 (rowAt t p) :=
  funext fun k => iblk0_at m c t p k

/-- Row `p` of data window 1's block at point `t` is row `128 t + p` of argument 1. -/
theorem row1 (t : Fin cfg0.N) (p : Fin 128) : rowOf (R := 128) (iblk m c 1 t : Vec Ideal S128x1024 .f32) p = rowOf (R := 4096) A1 (rowAt t p) :=
  funext fun k => iblk1_at m c t p k

/-- Row `p` of data window 2's block at point `t` is row `128 t + p` of argument 2. -/
theorem row2 (t : Fin cfg0.N) (p : Fin 128) : rowOf (R := 128) (iblk m c 2 t : Vec Ideal S128x1024 .f32) p = rowOf (R := 4096) A2 (rowAt t p) :=
  funext fun k => iblk2_at m c t p k

/-- Row `p` of data window 3's block at point `t` is row `128 t + p` of argument 3. -/
theorem row3 (t : Fin cfg0.N) (p : Fin 128) : rowOf (R := 128) (iblk m c 3 t : Vec Ideal S128x1024 .f32) p = rowOf (R := 4096) A3 (rowAt t p) :=
  funext fun k => iblk3_at m c t p k

/-- The ratio weight is handed over as it is. -/
theorem wTr (t : Fin cfg0.N) : matOf (iblk m c 6 t : Vec Ideal S1024x1024 .f32) = matOf A12 := by
  rw [iblk6_eq, V_main_arg12]

theorem wTrb (t : Fin cfg0.N) : brow (iblk m c 7 t : Vec Ideal S1x1024 .f32) = biasOf A13 := by
  rw [iblk7_eq]
  funext q
  exact V_v20 m c q

theorem wWtx (t : Fin cfg0.N) : matOf (iblk m c 8 t : Vec Ideal S1024x1024 .f32) = matLo A4 := by
  rw [iblk8_eq]
  funext q k
  exact V_v0 m c q k

theorem wWth (t : Fin cfg0.N) : matOf (iblk m c 9 t : Vec Ideal S1024x1024 .f32) = matHi A4 := by
  rw [iblk9_eq]
  funext q k
  exact V_v1 m c q k

theorem wWtb (t : Fin cfg0.N) : brow (iblk m c 10 t : Vec Ideal S1x1024 .f32) = biasOf A5 := by
  rw [iblk10_eq]
  funext q
  exact V_v21 m c q

theorem wEi (t : Fin cfg0.N) : matOf (iblk m c 4 t : Vec Ideal S1024x1024 .bf16) = matOf A14 := by
  rw [iblk4_eq]
  funext q k
  exact V_v18 m c q k

theorem wEib (t : Fin cfg0.N) : brow (iblk m c 5 t : Vec Ideal S1x1024 .f32) = biasOf A15 := by
  rw [iblk5_eq]
  funext q
  exact V_v19 m c q

theorem wWax (t : Fin cfg0.N) : matTop (iblk m c 11 t : Vec Ideal S2048x1024 .bf16) = matLo A6 := by
  rw [iblk11_eq]
  funext q k
  exact V_v10_lo m c q k

theorem wHwx (t : Fin cfg0.N) : matBot (iblk m c 11 t : Vec Ideal S2048x1024 .bf16) = matLo A10 := by
  rw [iblk11_eq]
  funext q k
  exact V_v10_hi m c q k

theorem wWah (t : Fin cfg0.N) : matTop (iblk m c 12 t : Vec Ideal S2048x1024 .bf16) = matHi A6 := by
  rw [iblk12_eq]
  funext q k
  exact V_v11_lo m c q k

theorem wHwh (t : Fin cfg0.N) : matBot (iblk m c 12 t : Vec Ideal S2048x1024 .bf16) = matHi A10 := by
  rw [iblk12_eq]
  funext q k
  exact V_v11_hi m c q k

theorem wWab (t : Fin cfg0.N) : browLo (iblk m c 13 t : Vec Ideal S1x2048 .f32) = biasOf A7 := by
  rw [iblk13_eq]
  funext q
  exact V_v13_lo m c q

theorem wHwb (t : Fin cfg0.N) : browHi (iblk m c 13 t : Vec Ideal S1x2048 .f32) = biasOf A11 := by
  rw [iblk13_eq]
  funext q
  exact V_v13_hi m c q

theorem wEhx (t : Fin cfg0.N) : matOf (iblk m c 14 t : Vec Ideal S1024x1024 .bf16) = matLo A8 := by
  rw [iblk14_eq]
  funext q k
  exact V_v16 m c q k

theorem wEhh (t : Fin cfg0.N) : matOf (iblk m c 15 t : Vec Ideal S1024x1024 .bf16) = matHi A8 := by
  rw [iblk15_eq]
  funext q k
  exact V_v17 m c q k

theorem wEhb (t : Fin cfg0.N) : brow (iblk m c 16 t : Vec Ideal S1x1024 .f32) = biasOf A9 := by
  rw [iblk16_eq]
  funext q
  exact V_v22 m c q

/-! ## One point, one entry -/

/-- Entry (p, q) of the time-cell block of point `t` is entry (128 t + p, q) of `arrTc` of the arguments. -/
theorem tc_point (t : Fin cfg0.N) (p : Fin 128) (q : Fin 1024) :
    (k0_pay9 (iblk m c 3 t : Vec Ideal S128x1024 .f32) (k0_pay5 (iblk m c 0 t : Vec Ideal S128x1024 .f32) (iblk m c 6 t : Vec Ideal S1024x1024 .f32) (iblk m c 7 t : Vec Ideal S1x1024 .f32)) (k0_pay6 (iblk m c 0 t : Vec Ideal S128x1024 .f32) (iblk m c 1 t : Vec Ideal S128x1024 .f32) (iblk m c 8 t : Vec Ideal S1024x1024 .f32) (iblk m c 9 t : Vec Ideal S1024x1024 .f32) (iblk m c 10 t : Vec Ideal S1x1024 .f32))) (ix2 p q) = (arrTc A0 A1 A3 A4 A5 A12 A13 : S4096x1024.Idx → EReal) (ix2 (rowAt t p) q) := by
  refine (tc_block_at (iblk m c 0 t : Vec Ideal S128x1024 .f32) (iblk m c 1 t : Vec Ideal S128x1024 .f32) (iblk m c 3 t : Vec Ideal S128x1024 .f32) (iblk m c 6 t : Vec Ideal S1024x1024 .f32) (iblk m c 7 t : Vec Ideal S1x1024 .f32) (iblk m c 8 t : Vec Ideal S1024x1024 .f32) (iblk m c 9 t : Vec Ideal S1024x1024 .f32) (iblk m c 10 t : Vec Ideal S1x1024 .f32) p q).trans ?_
  rw [row0, row1, row3, wTr, wTrb, wWtx, wWth, wWtb]
  rfl

/-- Entry (p, q) of the excited-cell block of point `t` is entry (128 t + p, q) of `arrEx` of the arguments. -/
theorem ex_point (t : Fin cfg0.N) (p : Fin 128) (q : Fin 1024) :
    (k0_pay13 (iblk m c 2 t : Vec Ideal S128x1024 .f32) (iblk m c 3 t : Vec Ideal S128x1024 .f32) (k0_pay2 (iblk m c 0 t : Vec Ideal S128x1024 .f32)) (k0_pay3 (iblk m c 1 t : Vec Ideal S128x1024 .f32)) (k0_pay4 (iblk m c 0 t : Vec Ideal S128x1024 .f32) (iblk m c 4 t : Vec Ideal S1024x1024 .bf16) (iblk m c 5 t : Vec Ideal S1x1024 .f32)) (k0_pay5 (iblk m c 0 t : Vec Ideal S128x1024 .f32) (iblk m c 6 t : Vec Ideal S1024x1024 .f32) (iblk m c 7 t : Vec Ideal S1x1024 .f32)) (k0_pay6 (iblk m c 0 t : Vec Ideal S128x1024 .f32) (iblk m c 1 t : Vec Ideal S128x1024 .f32) (iblk m c 8 t : Vec Ideal S1024x1024 .f32) (iblk m c 9 t : Vec Ideal S1024x1024 .f32) (iblk m c 10 t : Vec Ideal S1x1024 .f32)) (iblk m c 11 t : Vec Ideal S2048x1024 .bf16) (iblk m c 12 t : Vec Ideal S2048x1024 .bf16) (iblk m c 13 t : Vec Ideal S1x2048 .f32)) (ix2 p q) = (arrEx A0 A1 A2 A3 A4 A5 A6 A7 A12 A13 A14 A15 : S4096x1024.Idx → EReal) (ix2 (rowAt t p) q) := by
  refine (ex_block_at (iblk m c 0 t : Vec Ideal S128x1024 .f32) (iblk m c 1 t : Vec Ideal S128x1024 .f32) (iblk m c 2 t : Vec Ideal S128x1024 .f32) (iblk m c 3 t : Vec Ideal S128x1024 .f32) (iblk m c 6 t : Vec Ideal S1024x1024 .f32) (iblk m c 7 t : Vec Ideal S1x1024 .f32) (iblk m c 8 t : Vec Ideal S1024x1024 .f32) (iblk m c 9 t : Vec Ideal S1024x1024 .f32) (iblk m c 10 t : Vec Ideal S1x1024 .f32) (iblk m c 4 t : Vec Ideal S1024x1024 .bf16) (iblk m c 5 t : Vec Ideal S1x1024 .f32) (iblk m c 11 t : Vec Ideal S2048x1024 .bf16) (iblk m c 12 t : Vec Ideal S2048x1024 .bf16) (iblk m c 13 t : Vec Ideal S1x2048 .f32) p q).trans ?_
  rw [row0, row1, row2, row3, wTr, wTrb, wWtx, wWth, wWtb, wEi, wEib, wWax, wWah, wWab]
  rfl

/-- Entry (p, q) of the state block of point `t` is entry (128 t + p, q) of `arrH` of the arguments. -/
theorem h_point (t : Fin cfg0.N) (p : Fin 128) (q : Fin 1024) :
    (k0_pay1 (iblk m c 1 t : Vec Ideal S128x1024 .f32) (k0_pay2 (iblk m c 0 t : Vec Ideal S128x1024 .f32)) (k0_pay12 (k0_pay2 (iblk m c 0 t : Vec Ideal S128x1024 .f32)) (k0_pay3 (iblk m c 1 t : Vec Ideal S128x1024 .f32)) (iblk m c 11 t : Vec Ideal S2048x1024 .bf16) (iblk m c 12 t : Vec Ideal S2048x1024 .bf16) (iblk m c 13 t : Vec Ideal S1x2048 .f32)) (k0_pay14 (iblk m c 1 t : Vec Ideal S128x1024 .f32) (iblk m c 2 t : Vec Ideal S128x1024 .f32) (iblk m c 3 t : Vec Ideal S128x1024 .f32) (k0_pay5 (iblk m c 0 t : Vec Ideal S128x1024 .f32) (iblk m c 6 t : Vec Ideal S1024x1024 .f32) (iblk m c 7 t : Vec Ideal S1x1024 .f32)) (k0_pay6 (iblk m c 0 t : Vec Ideal S128x1024 .f32) (iblk m c 1 t : Vec Ideal S128x1024 .f32) (iblk m c 8 t : Vec Ideal S1024x1024 .f32) (iblk m c 9 t : Vec Ideal S1024x1024 .f32) (iblk m c 10 t : Vec Ideal S1x1024 .f32))) (iblk m c 14 t : Vec Ideal S1024x1024 .bf16) (iblk m c 15 t : Vec Ideal S1024x1024 .bf16) (iblk m c 16 t : Vec Ideal S1x1024 .f32)) (ix2 p q) = (arrH A0 A1 A2 A3 A4 A5 A8 A9 A10 A11 A12 A13 : S4096x1024.Idx → EReal) (ix2 (rowAt t p) q) := by
  refine (h_block_at (iblk m c 0 t : Vec Ideal S128x1024 .f32) (iblk m c 1 t : Vec Ideal S128x1024 .f32) (iblk m c 2 t : Vec Ideal S128x1024 .f32) (iblk m c 3 t : Vec Ideal S128x1024 .f32) (iblk m c 6 t : Vec Ideal S1024x1024 .f32) (iblk m c 7 t : Vec Ideal S1x1024 .f32) (iblk m c 8 t : Vec Ideal S1024x1024 .f32) (iblk m c 9 t : Vec Ideal S1024x1024 .f32) (iblk m c 10 t : Vec Ideal S1x1024 .f32) (iblk m c 11 t : Vec Ideal S2048x1024 .bf16) (iblk m c 12 t : Vec Ideal S2048x1024 .bf16) (iblk m c 13 t : Vec Ideal S1x2048 .f32) (iblk m c 14 t : Vec Ideal S1024x1024 .bf16) (iblk m c 15 t : Vec Ideal S1024x1024 .bf16) (iblk m c 16 t : Vec Ideal S1x1024 .f32) p q).trans ?_
  rw [row0, row1, row2, row3, wTr, wTrb, wWtx, wWth, wWtb, wEhx, wEhh, wEhb, wHwx, wHwh, wHwb]
  rfl

/-- The same at any index `j` of the block. -/
theorem tc_point_idx (t : Fin cfg0.N) (j : S128x1024.Idx) :
    (k0_pay9 (iblk m c 3 t : Vec Ideal S128x1024 .f32) (k0_pay5 (iblk m c 0 t : Vec Ideal S128x1024 .f32) (iblk m c 6 t : Vec Ideal S1024x1024 .f32) (iblk m c 7 t : Vec Ideal S1x1024 .f32)) (k0_pay6 (iblk m c 0 t : Vec Ideal S128x1024 .f32) (iblk m c 1 t : Vec Ideal S128x1024 .f32) (iblk m c 8 t : Vec Ideal S1024x1024 .f32) (iblk m c 9 t : Vec Ideal S1024x1024 .f32) (iblk m c 10 t : Vec Ideal S1x1024 .f32))) j = (arrTc A0 A1 A3 A4 A5 A12 A13 : S4096x1024.Idx → EReal) (ix2 (rowAt t (j 0)) (j 1)) := by
  obtain ⟨p, q, rfl⟩ : ∃ (p : Fin 128) (q : Fin 1024), j = ix2 p q := ⟨j 0, j 1, eq_ix2 j⟩
  exact tc_point m c t p q

theorem ex_point_idx (t : Fin cfg0.N) (j : S128x1024.Idx) :
    (k0_pay13 (iblk m c 2 t : Vec Ideal S128x1024 .f32) (iblk m c 3 t : Vec Ideal S128x1024 .f32) (k0_pay2 (iblk m c 0 t : Vec Ideal S128x1024 .f32)) (k0_pay3 (iblk m c 1 t : Vec Ideal S128x1024 .f32)) (k0_pay4 (iblk m c 0 t : Vec Ideal S128x1024 .f32) (iblk m c 4 t : Vec Ideal S1024x1024 .bf16) (iblk m c 5 t : Vec Ideal S1x1024 .f32)) (k0_pay5 (iblk m c 0 t : Vec Ideal S128x1024 .f32) (iblk m c 6 t : Vec Ideal S1024x1024 .f32) (iblk m c 7 t : Vec Ideal S1x1024 .f32)) (k0_pay6 (iblk m c 0 t : Vec Ideal S128x1024 .f32) (iblk m c 1 t : Vec Ideal S128x1024 .f32) (iblk m c 8 t : Vec Ideal S1024x1024 .f32) (iblk m c 9 t : Vec Ideal S1024x1024 .f32) (iblk m c 10 t : Vec Ideal S1x1024 .f32)) (iblk m c 11 t : Vec Ideal S2048x1024 .bf16) (iblk m c 12 t : Vec Ideal S2048x1024 .bf16) (iblk m c 13 t : Vec Ideal S1x2048 .f32)) j = (arrEx A0 A1 A2 A3 A4 A5 A6 A7 A12 A13 A14 A15 : S4096x1024.Idx → EReal) (ix2 (rowAt t (j 0)) (j 1)) := by
  obtain ⟨p, q, rfl⟩ : ∃ (p : Fin 128) (q : Fin 1024), j = ix2 p q := ⟨j 0, j 1, eq_ix2 j⟩
  exact ex_point m c t p q

theorem h_point_idx (t : Fin cfg0.N) (j : S128x1024.Idx) :
    (k0_pay1 (iblk m c 1 t : Vec Ideal S128x1024 .f32) (k0_pay2 (iblk m c 0 t : Vec Ideal S128x1024 .f32)) (k0_pay12 (k0_pay2 (iblk m c 0 t : Vec Ideal S128x1024 .f32)) (k0_pay3 (iblk m c 1 t : Vec Ideal S128x1024 .f32)) (iblk m c 11 t : Vec Ideal S2048x1024 .bf16) (iblk m c 12 t : Vec Ideal S2048x1024 .bf16) (iblk m c 13 t : Vec Ideal S1x2048 .f32)) (k0_pay14 (iblk m c 1 t : Vec Ideal S128x1024 .f32) (iblk m c 2 t : Vec Ideal S128x1024 .f32) (iblk m c 3 t : Vec Ideal S128x1024 .f32) (k0_pay5 (iblk m c 0 t : Vec Ideal S128x1024 .f32) (iblk m c 6 t : Vec Ideal S1024x1024 .f32) (iblk m c 7 t : Vec Ideal S1x1024 .f32)) (k0_pay6 (iblk m c 0 t : Vec Ideal S128x1024 .f32) (iblk m c 1 t : Vec Ideal S128x1024 .f32) (iblk m c 8 t : Vec Ideal S1024x1024 .f32) (iblk m c 9 t : Vec Ideal S1024x1024 .f32) (iblk m c 10 t : Vec Ideal S1x1024 .f32))) (iblk m c 14 t : Vec Ideal S1024x1024 .bf16) (iblk m c 15 t : Vec Ideal S1024x1024 .bf16) (iblk m c 16 t : Vec Ideal S1x1024 .f32)) j = (arrH A0 A1 A2 A3 A4 A5 A8 A9 A10 A11 A12 A13 : S4096x1024.Idx → EReal) (ix2 (rowAt t (j 0)) (j 1)) := by
  obtain ⟨p, q, rfl⟩ : ∃ (p : Fin 128) (q : Fin 1024), j = ix2 p q := ⟨j 0, j 1, eq_ix2 j⟩
  exact h_point m c t p q

/-! ## The blocks tile the arrays -/

theorem hz : (![0, 0] : Fin 2 → Nat) = fun _ => 0 := funext fun a => by fin_cases a <;> rfl

/-- Each output window's block index at point `t` is (t, 0). -/
theorem idx_out17 : ∀ t : Fin cfg0.N, win0_17.index t (0 : Fin 2) = t.val ∧ win0_17.index t (1 : Fin 2) = 0 :=
  (by decide +kernel : ∀ t : Fin grid0.N, _)
theorem idx_out18 : ∀ t : Fin cfg0.N, win0_18.index t (0 : Fin 2) = t.val ∧ win0_18.index t (1 : Fin 2) = 0 :=
  (by decide +kernel : ∀ t : Fin grid0.N, _)
theorem idx_out19 : ∀ t : Fin cfg0.N, win0_19.index t (0 : Fin 2) = t.val ∧ win0_19.index t (1 : Fin 2) = 0 :=
  (by decide +kernel : ∀ t : Fin grid0.N, _)

/-! ## Output window 17: the new state -/

/-- WHAT POINT `t` WRITES BACK is rows 128 t … 128 t + 127 of the whole-array function. -/
theorem flushed17_eq (t : Fin cfg0.N) :
    (dats m 0 c).flushed 17 t = ((cfg0.win 17).blk t).view.read (Elt Ideal) (arrH A0 A1 A2 A3 A4 A5 A8 A9 A10 A11 A12 A13 : S4096x1024.Idx → EReal) := by
  obtain ⟨h0, h1⟩ := idx_out17 t
  rw [ValueP.flushed17]
  unfold out0_17
  rw [View.canon_unit_zero hz]
  simp only [View.ld_unit_zero (S := S128x1024) hz, View.ld_unit_zero (S := S1024x1024) hz, View.ld_unit_zero (S := S1x1024) hz,
    View.ld_unit_zero (S := S2048x1024) hz, View.ld_unit_zero (S := S1x2048) hz]
  funext j
  show (k0_pay1 (iblk m c 1 t : Vec Ideal S128x1024 .f32) (k0_pay2 (iblk m c 0 t : Vec Ideal S128x1024 .f32)) (k0_pay12 (k0_pay2 (iblk m c 0 t : Vec Ideal S128x1024 .f32)) (k0_pay3 (iblk m c 1 t : Vec Ideal S128x1024 .f32)) (iblk m c 11 t : Vec Ideal S2048x1024 .bf16) (iblk m c 12 t : Vec Ideal S2048x1024 .bf16) (iblk m c 13 t : Vec Ideal S1x2048 .f32)) (k0_pay14 (iblk m c 1 t : Vec Ideal S128x1024 .f32) (iblk m c 2 t : Vec Ideal S128x1024 .f32) (iblk m c 3 t : Vec Ideal S128x1024 .f32) (k0_pay5 (iblk m c 0 t : Vec Ideal S128x1024 .f32) (iblk m c 6 t : Vec Ideal S1024x1024 .f32) (iblk m c 7 t : Vec Ideal S1x1024 .f32)) (k0_pay6 (iblk m c 0 t : Vec Ideal S128x1024 .f32) (iblk m c 1 t : Vec Ideal S128x1024 .f32) (iblk m c 8 t : Vec Ideal S1024x1024 .f32) (iblk m c 9 t : Vec Ideal S1024x1024 .f32) (iblk m c 10 t : Vec Ideal S1x1024 .f32))) (iblk m c 14 t : Vec Ideal S1024x1024 .bf16) (iblk m c 15 t : Vec Ideal S1024x1024 .bf16) (iblk m c 16 t : Vec Ideal S1x1024 .f32)) j = (arrH A0 A1 A2 A3 A4 A5 A8 A9 A10 A11 A12 A13 : S4096x1024.Idx → EReal) (((cfg0.win 17).blk t).view.emb j)
  rw [h_point_idx m c t j]
  refine congrArg (arrH A0 A1 A2 A3 A4 A5 A8 A9 A10 A11 A12 A13 : S4096x1024.Idx → EReal) ?_
  funext a
  apply Fin.ext
  match a with
  | ⟨0, _⟩ => show 128 * t.val + (j 0).val = win0_17.index t (0 : Fin 2) * 128 + 1 * (j 0).val; rw [h0]; omega
  | ⟨1, _⟩ => show (j 1).val = win0_17.index t (1 : Fin 2) * 1024 + 1 * (j 1).val; rw [h1]; omega

/-- An index of the array is in point `t`'s block iff each coordinate is in the block's range on its axis. -/
theorem mem_blk17 (t : Fin cfg0.N) (i : S4096x1024.Idx) :
    i ∈ ((cfg0.win 17).blk t).view.set ↔ ∀ a : Fin 2, win0_17.index t a * S128x1024.size a ≤ (i a).val ∧ (i a).val < win0_17.index t a * S128x1024.size a + S128x1024.size a := by
  show i ∈ ((View.whole main_v23_0).slice (win0_17.rect t)).set ↔ _
  rw [View.set_slice_whole, Rect.mem_set_unit]
  exact Iff.rfl

/-- Row `r` of the array is written by the point `r / 128`: the 32 blocks cover the array. -/
theorem cover17 (i : S4096x1024.Idx) : ∃ t : Fin cfg0.N, (cfg0.win 17).flush t = true ∧ i ∈ ((cfg0.win 17).blk t).view.set := by
  have hi0 : (i 0).val < 4096 := (i 0).isLt
  have hi1 : (i 1).val < 1024 := (i 1).isLt
  have hN : cfg0.N = 32 := N_0
  have hlt : (i 0).val / 128 < cfg0.N := by rw [hN]; omega
  obtain ⟨h0, h1⟩ := idx_out17 ⟨(i 0).val / 128, hlt⟩
  refine ⟨⟨(i 0).val / 128, hlt⟩, flush0_17 _, ?_⟩
  rw [mem_blk17]
  intro a
  match a with
  | ⟨0, _⟩ =>
    show win0_17.index ⟨(i 0).val / 128, hlt⟩ (0 : Fin 2) * 128 ≤ (i 0).val ∧ (i 0).val < win0_17.index ⟨(i 0).val / 128, hlt⟩ (0 : Fin 2) * 128 + 128
    rw [h0]; show (i 0).val / 128 * 128 ≤ (i 0).val ∧ (i 0).val < (i 0).val / 128 * 128 + 128; omega
  | ⟨1, _⟩ =>
    show win0_17.index ⟨(i 0).val / 128, hlt⟩ (1 : Fin 2) * 1024 ≤ (i 1).val ∧ (i 1).val < win0_17.index ⟨(i 0).val / 128, hlt⟩ (1 : Fin 2) * 1024 + 1024
    rw [h1]; omega

/-- THE ARRAY after the run is the whole-array function of the arguments. -/
theorem final17 : (dats m 0 c).arrAt 17 cfg0.N = (arrH A0 A1 A2 A3 A4 A5 A8 A9 A10 A11 A12 A13 : S4096x1024.Idx → EReal) :=
  (dats m 0 c).arrAt_eq_of_cover 17 (arrH A0 A1 A2 A3 A4 A5 A8 A9 A10 A11 A12 A13 : S4096x1024.Idx → EReal) (fun t _ => flushed17_eq m c t) (cover17)

/-! ## Output window 18: the new excited cell -/

/-- WHAT POINT `t` WRITES BACK is rows 128 t … 128 t + 127 of the whole-array function. -/
theorem flushed18_eq (t : Fin cfg0.N) :
    (dats m 0 c).flushed 18 t = ((cfg0.win 18).blk t).view.read (Elt Ideal) (arrEx A0 A1 A2 A3 A4 A5 A6 A7 A12 A13 A14 A15 : S4096x1024.Idx → EReal) := by
  obtain ⟨h0, h1⟩ := idx_out18 t
  rw [ValueP.flushed18]
  unfold out0_18
  rw [View.canon_unit_zero hz]
  simp only [View.ld_unit_zero (S := S128x1024) hz, View.ld_unit_zero (S := S1024x1024) hz, View.ld_unit_zero (S := S1x1024) hz,
    View.ld_unit_zero (S := S2048x1024) hz, View.ld_unit_zero (S := S1x2048) hz]
  funext j
  show (k0_pay13 (iblk m c 2 t : Vec Ideal S128x1024 .f32) (iblk m c 3 t : Vec Ideal S128x1024 .f32) (k0_pay2 (iblk m c 0 t : Vec Ideal S128x1024 .f32)) (k0_pay3 (iblk m c 1 t : Vec Ideal S128x1024 .f32)) (k0_pay4 (iblk m c 0 t : Vec Ideal S128x1024 .f32) (iblk m c 4 t : Vec Ideal S1024x1024 .bf16) (iblk m c 5 t : Vec Ideal S1x1024 .f32)) (k0_pay5 (iblk m c 0 t : Vec Ideal S128x1024 .f32) (iblk m c 6 t : Vec Ideal S1024x1024 .f32) (iblk m c 7 t : Vec Ideal S1x1024 .f32)) (k0_pay6 (iblk m c 0 t : Vec Ideal S128x1024 .f32) (iblk m c 1 t : Vec Ideal S128x1024 .f32) (iblk m c 8 t : Vec Ideal S1024x1024 .f32) (iblk m c 9 t : Vec Ideal S1024x1024 .f32) (iblk m c 10 t : Vec Ideal S1x1024 .f32)) (iblk m c 11 t : Vec Ideal S2048x1024 .bf16) (iblk m c 12 t : Vec Ideal S2048x1024 .bf16) (iblk m c 13 t : Vec Ideal S1x2048 .f32)) j = (arrEx A0 A1 A2 A3 A4 A5 A6 A7 A12 A13 A14 A15 : S4096x1024.Idx → EReal) (((cfg0.win 18).blk t).view.emb j)
  rw [ex_point_idx m c t j]
  refine congrArg (arrEx A0 A1 A2 A3 A4 A5 A6 A7 A12 A13 A14 A15 : S4096x1024.Idx → EReal) ?_
  funext a
  apply Fin.ext
  match a with
  | ⟨0, _⟩ => show 128 * t.val + (j 0).val = win0_18.index t (0 : Fin 2) * 128 + 1 * (j 0).val; rw [h0]; omega
  | ⟨1, _⟩ => show (j 1).val = win0_18.index t (1 : Fin 2) * 1024 + 1 * (j 1).val; rw [h1]; omega

/-- An index of the array is in point `t`'s block iff each coordinate is in the block's range on its axis. -/
theorem mem_blk18 (t : Fin cfg0.N) (i : S4096x1024.Idx) :
    i ∈ ((cfg0.win 18).blk t).view.set ↔ ∀ a : Fin 2, win0_18.index t a * S128x1024.size a ≤ (i a).val ∧ (i a).val < win0_18.index t a * S128x1024.size a + S128x1024.size a := by
  show i ∈ ((View.whole main_v23_1).slice (win0_18.rect t)).set ↔ _
  rw [View.set_slice_whole, Rect.mem_set_unit]
  exact Iff.rfl

/-- Row `r` of the array is written by the point `r / 128`: the 32 blocks cover the array. -/
theorem cover18 (i : S4096x1024.Idx) : ∃ t : Fin cfg0.N, (cfg0.win 18).flush t = true ∧ i ∈ ((cfg0.win 18).blk t).view.set := by
  have hi0 : (i 0).val < 4096 := (i 0).isLt
  have hi1 : (i 1).val < 1024 := (i 1).isLt
  have hN : cfg0.N = 32 := N_0
  have hlt : (i 0).val / 128 < cfg0.N := by rw [hN]; omega
  obtain ⟨h0, h1⟩ := idx_out18 ⟨(i 0).val / 128, hlt⟩
  refine ⟨⟨(i 0).val / 128, hlt⟩, flush0_18 _, ?_⟩
  rw [mem_blk18]
  intro a
  match a with
  | ⟨0, _⟩ =>
    show win0_18.index ⟨(i 0).val / 128, hlt⟩ (0 : Fin 2) * 128 ≤ (i 0).val ∧ (i 0).val < win0_18.index ⟨(i 0).val / 128, hlt⟩ (0 : Fin 2) * 128 + 128
    rw [h0]; show (i 0).val / 128 * 128 ≤ (i 0).val ∧ (i 0).val < (i 0).val / 128 * 128 + 128; omega
  | ⟨1, _⟩ =>
    show win0_18.index ⟨(i 0).val / 128, hlt⟩ (1 : Fin 2) * 1024 ≤ (i 1).val ∧ (i 1).val < win0_18.index ⟨(i 0).val / 128, hlt⟩ (1 : Fin 2) * 1024 + 1024
    rw [h1]; omega

/-- THE ARRAY after the run is the whole-array function of the arguments. -/
theorem final18 : (dats m 0 c).arrAt 18 cfg0.N = (arrEx A0 A1 A2 A3 A4 A5 A6 A7 A12 A13 A14 A15 : S4096x1024.Idx → EReal) :=
  (dats m 0 c).arrAt_eq_of_cover 18 (arrEx A0 A1 A2 A3 A4 A5 A6 A7 A12 A13 A14 A15 : S4096x1024.Idx → EReal) (fun t _ => flushed18_eq m c t) (cover18)

/-! ## Output window 19: the new time cell -/

/-- WHAT POINT `t` WRITES BACK is rows 128 t … 128 t + 127 of the whole-array function. -/
theorem flushed19_eq (t : Fin cfg0.N) :
    (dats m 0 c).flushed 19 t = ((cfg0.win 19).blk t).view.read (Elt Ideal) (arrTc A0 A1 A3 A4 A5 A12 A13 : S4096x1024.Idx → EReal) := by
  obtain ⟨h0, h1⟩ := idx_out19 t
  rw [ValueP.flushed19]
  unfold out0_19
  rw [View.canon_unit_zero hz]
  simp only [View.ld_unit_zero (S := S128x1024) hz, View.ld_unit_zero (S := S1024x1024) hz, View.ld_unit_zero (S := S1x1024) hz,
    View.ld_unit_zero (S := S2048x1024) hz, View.ld_unit_zero (S := S1x2048) hz]
  funext j
  show (k0_pay9 (iblk m c 3 t : Vec Ideal S128x1024 .f32) (k0_pay5 (iblk m c 0 t : Vec Ideal S128x1024 .f32) (iblk m c 6 t : Vec Ideal S1024x1024 .f32) (iblk m c 7 t : Vec Ideal S1x1024 .f32)) (k0_pay6 (iblk m c 0 t : Vec Ideal S128x1024 .f32) (iblk m c 1 t : Vec Ideal S128x1024 .f32) (iblk m c 8 t : Vec Ideal S1024x1024 .f32) (iblk m c 9 t : Vec Ideal S1024x1024 .f32) (iblk m c 10 t : Vec Ideal S1x1024 .f32))) j = (arrTc A0 A1 A3 A4 A5 A12 A13 : S4096x1024.Idx → EReal) (((cfg0.win 19).blk t).view.emb j)
  rw [tc_point_idx m c t j]
  refine congrArg (arrTc A0 A1 A3 A4 A5 A12 A13 : S4096x1024.Idx → EReal) ?_
  funext a
  apply Fin.ext
  match a with
  | ⟨0, _⟩ => show 128 * t.val + (j 0).val = win0_19.index t (0 : Fin 2) * 128 + 1 * (j 0).val; rw [h0]; omega
  | ⟨1, _⟩ => show (j 1).val = win0_19.index t (1 : Fin 2) * 1024 + 1 * (j 1).val; rw [h1]; omega

/-- An index of the array is in point `t`'s block iff each coordinate is in the block's range on its axis. -/
theorem mem_blk19 (t : Fin cfg0.N) (i : S4096x1024.Idx) :
    i ∈ ((cfg0.win 19).blk t).view.set ↔ ∀ a : Fin 2, win0_19.index t a * S128x1024.size a ≤ (i a).val ∧ (i a).val < win0_19.index t a * S128x1024.size a + S128x1024.size a := by
  show i ∈ ((View.whole main_v23_2).slice (win0_19.rect t)).set ↔ _
  rw [View.set_slice_whole, Rect.mem_set_unit]
  exact Iff.rfl

/-- Row `r` of the array is written by the point `r / 128`: the 32 blocks cover the array. -/
theorem cover19 (i : S4096x1024.Idx) : ∃ t : Fin cfg0.N, (cfg0.win 19).flush t = true ∧ i ∈ ((cfg0.win 19).blk t).view.set := by
  have hi0 : (i 0).val < 4096 := (i 0).isLt
  have hi1 : (i 1).val < 1024 := (i 1).isLt
  have hN : cfg0.N = 32 := N_0
  have hlt : (i 0).val / 128 < cfg0.N := by rw [hN]; omega
  obtain ⟨h0, h1⟩ := idx_out19 ⟨(i 0).val / 128, hlt⟩
  refine ⟨⟨(i 0).val / 128, hlt⟩, flush0_19 _, ?_⟩
  rw [mem_blk19]
  intro a
  match a with
  | ⟨0, _⟩ =>
    show win0_19.index ⟨(i 0).val / 128, hlt⟩ (0 : Fin 2) * 128 ≤ (i 0).val ∧ (i 0).val < win0_19.index ⟨(i 0).val / 128, hlt⟩ (0 : Fin 2) * 128 + 128
    rw [h0]; show (i 0).val / 128 * 128 ≤ (i 0).val ∧ (i 0).val < (i 0).val / 128 * 128 + 128; omega
  | ⟨1, _⟩ =>
    show win0_19.index ⟨(i 0).val / 128, hlt⟩ (1 : Fin 2) * 1024 ≤ (i 1).val ∧ (i 1).val < win0_19.index ⟨(i 0).val / 128, hlt⟩ (1 : Fin 2) * 1024 + 1024
    rw [h1]; omega

/-- THE ARRAY after the run is the whole-array function of the arguments. -/
theorem final19 : (dats m 0 c).arrAt 19 cfg0.N = (arrTc A0 A1 A3 A4 A5 A12 A13 : S4096x1024.Idx → EReal) :=
  (dats m 0 c).arrAt_eq_of_cover 19 (arrTc A0 A1 A3 A4 A5 A12 A13 : S4096x1024.Idx → EReal) (fun t _ => flushed19_eq m c t) (cover19)

/-! ## The run, read -/

/-- Every weakly fair execution of the kernel's program terminates with the three results at `arrH`, `arrEx`, `arrTc` of
    the sixteen arguments, and the arguments unchanged. -/
theorem run : θ_run defs (onTc (τ := τ) (main (F := Ideal))) ⟨m, fun _ => 0, ρ⟩ fun r => ∀ c : Dev nD,
      r.2.mem ((c : Thread nD τ).loc main_v23_0) = (arrH (m ((c : Thread nD τ).loc main_arg0) : S4096x1024.Idx → EReal) (m ((c : Thread nD τ).loc main_arg1) : S4096x1024.Idx → EReal) (m ((c : Thread nD τ).loc main_arg2) : S4096x1024.Idx → EReal) (m ((c : Thread nD τ).loc main_arg3) : S4096x1024.Idx → EReal) (m ((c : Thread nD τ).loc main_arg4) : S1024x2048.Idx → EReal) (m ((c : Thread nD τ).loc main_arg5) : S1024.Idx → EReal) (m ((c : Thread nD τ).loc main_arg8) : S1024x2048.Idx → EReal) (m ((c : Thread nD τ).loc main_arg9) : S1024.Idx → EReal) (m ((c : Thread nD τ).loc main_arg10) : S1024x2048.Idx → EReal) (m ((c : Thread nD τ).loc main_arg11) : S1024.Idx → EReal) (m ((c : Thread nD τ).loc main_arg12) : S1024x1024.Idx → EReal) (m ((c : Thread nD τ).loc main_arg13) : S1024.Idx → EReal) : S4096x1024.Idx → EReal)
      ∧ r.2.mem ((c : Thread nD τ).loc main_v23_1) = (arrEx (m ((c : Thread nD τ).loc main_arg0) : S4096x1024.Idx → EReal) (m ((c : Thread nD τ).loc main_arg1) : S4096x1024.Idx → EReal) (m ((c : Thread nD τ).loc main_arg2) : S4096x1024.Idx → EReal) (m ((c : Thread nD τ).loc main_arg3) : S4096x1024.Idx → EReal) (m ((c : Thread nD τ).loc main_arg4) : S1024x2048.Idx → EReal) (m ((c : Thread nD τ).loc main_arg5) : S1024.Idx → EReal) (m ((c : Thread nD τ).loc main_arg6) : S1024x2048.Idx → EReal) (m ((c : Thread nD τ).loc main_arg7) : S1024.Idx → EReal) (m ((c : Thread nD τ).loc main_arg12) : S1024x1024.Idx → EReal) (m ((c : Thread nD τ).loc main_arg13) : S1024.Idx → EReal) (m ((c : Thread nD τ).loc main_arg14) : S1024x1024.Idx → EReal) (m ((c : Thread nD τ).loc main_arg15) : S1024.Idx → EReal) : S4096x1024.Idx → EReal)
      ∧ r.2.mem ((c : Thread nD τ).loc main_v23_2) = (arrTc (m ((c : Thread nD τ).loc main_arg0) : S4096x1024.Idx → EReal) (m ((c : Thread nD τ).loc main_arg1) : S4096x1024.Idx → EReal) (m ((c : Thread nD τ).loc main_arg3) : S4096x1024.Idx → EReal) (m ((c : Thread nD τ).loc main_arg4) : S1024x2048.Idx → EReal) (m ((c : Thread nD τ).loc main_arg5) : S1024.Idx → EReal) (m ((c : Thread nD τ).loc main_arg12) : S1024x1024.Idx → EReal) (m ((c : Thread nD τ).loc main_arg13) : S1024.Idx → EReal) : S4096x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final17 m c), (h c).2.1.trans (final18 m c),
      (h c).2.2.1.trans (final19 m c), (h c).2.2.2⟩)
    (ValueP.run_blocks m ρ)

end Cert.KernelIdeal.Whole

end
-- ==== Proof.RefCell.lean ====
/-
  The reference program is the cell.

  The reference computes each affine map of the cell as  concat(x, h) · Wᵀ + b  with a wide weight W : [1024, 2048], or as
  x · Wᵀ + b  with a square weight. At row r and feature q the first is
      ∑_{j < 2048} concat(x, h)(r, j) · W(q, j) + b(q),
  and a sum over the 2048 columns is the sum over the first 1024 plus the sum over the last 1024; on the first half the
  concatenation reads x(r, k), on the second h(r, k). So the sum is  x(r, ·) · W(q, first half) + h(r, ·) · W(q, second half),
  the two-input affine map of the cell. Only commutativity and associativity of + on the extended reals are used (inside
  the splitting of the sum): nothing has to be finite. Everything after the affine maps is elementwise and is, operation
  by operation, the cell's formula: the logistic function is spelt 1 / (1 + e^(−z)) with the word of 1, the rectifier is
  a maximum against the word of 0, the threshold is a comparison read as 0 or 1.
-/
import proofs.«165451_j4337916969454_2_alg».proof.Proof.Gen.ReferenceIdeal.Read
import proofs.«165451_j4337916969454_2_alg».proof.Proof.CellArrays
import Idealize.ShloMosaic.Lib.ValueIdx
import Idealize.ShloMosaic.Lib.ValueLayout
import Idealize.ShloMosaic.Lib.Pipeline.Value
import Idealize.ShloMosaic.PureOps.Ideal.Laws

noncomputable section

namespace Cert.RefCell

open Cert.ReferenceIdeal Cert.ReferenceIdeal.Gen Cert.ReferenceIdeal.Read Idealize.ShloMosaic Idealize.ShloMosaic.ValueIdx
  Idealize.SL.Sem Idealize.ShloMosaic.StableHlo Cert.Cell

/-- A data array [4096, 1024] of the reference. -/
abbrev DataT := (⟨S4096x1024, .f32⟩ : BufTy).Contents (Elt Ideal)
/-- A wide weight [1024, 2048] of the reference. -/
abbrev WideT := (⟨S1024x2048, .f32⟩ : BufTy).Contents (Elt Ideal)
/-- A square weight [1024, 1024] of the reference. -/
abbrev SqT := (⟨S1024x1024, .f32⟩ : BufTy).Contents (Elt Ideal)
/-- A bias [1024] of the reference. -/
abbrev BiasT := (⟨S1024, .f32⟩ : BufTy).Contents (Elt Ideal)

/-! ## Sums of products as inner products -/

/-- A sum of products whose factors are, term by term, the entries of two rows is the inner product of the rows. -/
theorem sum_eq_dot (f g : Fin 1024 → EReal) (x w : Row) (hf : ∀ k, f k = x k) (hg : ∀ k, g k = w k) :
    ∑ k : Fin 1024, f k * g k = dot x w :=
  Finset.sum_congr rfl fun k _ => by rw [hf k, hg k]

/-! ## The two concatenations, read on each half of the joined axis -/

/-- On the first half of the columns a concatenation along the columns reads its first piece. -/
theorem cat_lo (a b : DataT) (r : Fin 4096) (k : Fin 1024) :
    concatenate S4096x2048 1 [⟨S4096x1024, a⟩, ⟨S4096x1024, b⟩] concatenates_S4096x1024_S4096x1024_S4096x2048_d1
      (ix2 r (lo k)) = a (ix2 r k) :=
  concatenate_pair_apply_left 1 a b concatenates_S4096x1024_S4096x1024_S4096x2048_d1 (ix2 r (lo k)) rfl (ix2 r k)
    (fun c => match c with | ⟨0, _⟩ => rfl | ⟨1, _⟩ => rfl)

/-- On the second half of the columns it reads its second piece, 1024 columns to the left. -/
theorem cat_hi (a b : DataT) (r : Fin 4096) (k : Fin 1024) :
    concatenate S4096x2048 1 [⟨S4096x1024, a⟩, ⟨S4096x1024, b⟩] concatenates_S4096x1024_S4096x1024_S4096x2048_d1
      (ix2 r (hi k)) = b (ix2 r k) :=
  concatenate_pair_apply_right 1 a b concatenates_S4096x1024_S4096x1024_S4096x2048_d1 (ix2 r (hi k)) rfl rfl (ix2 r k)
    (fun c hc => match c, hc with | ⟨0, _⟩, _ => rfl | ⟨1, _⟩, hc => absurd rfl hc)
    (Nat.add_comm k.val 1024)

/-- The concatenation of the input with the state, on the first half of the columns: the input. -/
theorem v0_lo (x0 x1 : DataT) (r : Fin 4096) (k : Fin 1024) :
    val_main_v0 (F := Ideal) x0 x1 (ix2 r (lo k)) = x0 (ix2 r k) := cat_lo x0 x1 r k
/-- On the second half: the state. -/
theorem v0_hi (x0 x1 : DataT) (r : Fin 4096) (k : Fin 1024) :
    val_main_v0 (F := Ideal) x0 x1 (ix2 r (hi k)) = x1 (ix2 r k) := cat_hi x0 x1 r k

/-! ## The constants: the broadcast word of 1, of 0 -/

section consts
variable (i : S4096x1024.Idx)
theorem one_v8 : val_main_v8 (F := Ideal) i = w1 := (val_main_v8_apply i).trans rfl
theorem one_v10 : val_main_v10 (F := Ideal) i = w1 := (val_main_v10_apply i).trans rfl
theorem one_v19 : val_main_v19 (F := Ideal) i = w1 := (val_main_v19_apply i).trans rfl
theorem one_v21 : val_main_v21 (F := Ideal) i = w1 := (val_main_v21_apply i).trans rfl
theorem zero_call0 : val_main_call0_v0 (F := Ideal) i = w0 := (val_main_call0_v0_apply i).trans rfl
theorem one_v32 : val_main_v32 (F := Ideal) i = w1 := (val_main_v32_apply i).trans rfl
theorem zero_v34 : val_main_v34 (F := Ideal) i = w0 := (val_main_v34_apply i).trans rfl
theorem one_v37 : val_main_v37 (F := Ideal) i = w1 := (val_main_v37_apply i).trans rfl
theorem one_v42 : val_main_v42 (F := Ideal) i = w1 := (val_main_v42_apply i).trans rfl
theorem one_v53 : val_main_v53 (F := Ideal) i = w1 := (val_main_v53_apply i).trans rfl
theorem one_v55 : val_main_v55 (F := Ideal) i = w1 := (val_main_v55_apply i).trans rfl
theorem one_v73 : val_main_v73 (F := Ideal) i = w1 := (val_main_v73_apply i).trans rfl
theorem one_v75 : val_main_v75 (F := Ideal) i = w1 := (val_main_v75_apply i).trans rfl
theorem one_v77 : val_main_v77 (F := Ideal) i = w1 := (val_main_v77_apply i).trans rfl
end consts

/-! ## The biases: a bias broadcast over the rows reads the bias at the feature -/

section biases
variable (b : BiasT) (r : Fin 4096) (q : Fin 1024)
theorem bias_v4 : val_main_v4 (F := Ideal) b (ix2 r q) = biasOf b q :=
  (val_main_v4_apply b _).trans ((val_main_v3_apply b _).trans
    (congrArg b (funext fun a => by match a with | ⟨0, _⟩ => rfl)))
theorem bias_v15 : val_main_v15 (F := Ideal) b (ix2 r q) = biasOf b q :=
  (val_main_v15_apply b _).trans ((val_main_v14_apply b _).trans
    (congrArg b (funext fun a => by match a with | ⟨0, _⟩ => rfl)))
theorem bias_v26 : val_main_v26 (F := Ideal) b (ix2 r q) = biasOf b q :=
  (val_main_v26_apply b _).trans ((val_main_v25_apply b _).trans
    (congrArg b (funext fun a => by match a with | ⟨0, _⟩ => rfl)))
theorem bias_v49 : val_main_v49 (F := Ideal) b (ix2 r q) = biasOf b q :=
  (val_main_v49_apply b _).trans ((val_main_v48_apply b _).trans
    (congrArg b (funext fun a => by match a with | ⟨0, _⟩ => rfl)))
theorem bias_v63 : val_main_v63 (F := Ideal) b (ix2 r q) = biasOf b q :=
  (val_main_v63_apply b _).trans ((val_main_v62_apply b _).trans
    (congrArg b (funext fun a => by match a with | ⟨0, _⟩ => rfl)))
theorem bias_v69 : val_main_v69 (F := Ideal) b (ix2 r q) = biasOf b q :=
  (val_main_v69_apply b _).trans ((val_main_v68_apply b _).trans
    (congrArg b (funext fun a => by match a with | ⟨0, _⟩ => rfl)))
end biases

/-! ## The contractions -/

/-- Row r, column k of a data array, as the left index of a contraction spells it. -/
theorem lidx_sq (r : Fin 4096) (q k : Fin 1024) : lidx_main_v2 (ix2 r q) k = ix2 r k :=
  funext fun a => by match a with | ⟨0, _⟩ => rfl | ⟨1, _⟩ => rfl
/-- Entry (q, k) of a square weight, as the transposed right index of a contraction spells it. -/
theorem ridx_sq (r : Fin 4096) (q k : Fin 1024) : idx_main_v1 (ridx_main_v2 (ix2 r q) k) = ix2 q k :=
  funext fun a => by match a with | ⟨0, _⟩ => rfl | ⟨1, _⟩ => rfl
/-- Row r, column j of a concatenation, as the left index of a wide contraction spells it. -/
theorem lidx_wide (r : Fin 4096) (q : Fin 1024) (j : Fin 2048) : lidx_main_v24 (ix2 r q) j = ix2 r j :=
  funext fun a => by match a with | ⟨0, _⟩ => rfl | ⟨1, _⟩ => rfl
/-- Entry (q, j) of a wide weight, as the transposed right index of a wide contraction spells it. -/
theorem ridx_wide (r : Fin 4096) (q : Fin 1024) (j : Fin 2048) : idx_main_v23 (ridx_main_v24 (ix2 r q) j) = ix2 q j :=
  funext fun a => by match a with | ⟨0, _⟩ => rfl | ⟨1, _⟩ => rfl

/-- x · Eiᵀ at (r, q). -/
theorem dot_v2 (x0 : DataT) (x14 : SqT) (r : Fin 4096) (q : Fin 1024) :
    val_main_v2 (F := Ideal) x0 x14 (ix2 r q) = dot (rowOf x0 r) (matOf x14 q) :=
  (val_main_v2_apply x0 x14 (ix2 r q)).trans (sum_eq_dot _ _ _ _
    (fun k => congrArg x0 (lidx_sq r q k))
    (fun k => (val_main_v1_apply x14 _).trans (congrArg x14 (ridx_sq r q k))))

/-- x · Trᵀ at (r, q). -/
theorem dot_v13 (x0 : DataT) (x12 : SqT) (r : Fin 4096) (q : Fin 1024) :
    val_main_v13 (F := Ideal) x0 x12 (ix2 r q) = dot (rowOf x0 r) (matOf x12 q) :=
  (val_main_v13_apply x0 x12 (ix2 r q)).trans (sum_eq_dot _ _ _ _
    (fun k => congrArg x0 (lidx_sq r q k))
    (fun k => (val_main_v12_apply x12 _).trans (congrArg x12 (ridx_sq r q k))))

/-- A contraction of a concatenation [a, b] with a transposed wide weight, once the sum is split in its halves, is the
    inner product of the row of a with the first half of the weight's row plus that of the row of b with the second. -/
theorem wide_sum (c : (⟨S4096x2048, .f32⟩ : BufTy).Contents (Elt Ideal)) (wt : (⟨S2048x1024, .f32⟩ : BufTy).Contents (Elt Ideal))
    (W : WideT) (a b : Row) (r : Fin 4096) (q : Fin 1024)
    (hlo : ∀ k : Fin 1024, c (ix2 r (lo k)) = a k) (hhi : ∀ k : Fin 1024, c (ix2 r (hi k)) = b k)
    (hw : ∀ j : Fin 2048, wt (ridx_main_v24 (ix2 r q) j) = W (ix2 q j)) :
    ∑ j : Fin 2048, c (lidx_main_v24 (ix2 r q) j) * wt (ridx_main_v24 (ix2 r q) j)
      = dot a (matLo W q) + dot b (matHi W q) :=
  (sum_halves _).trans (congrArg₂ (· + ·)
    (sum_eq_dot _ _ _ _ (fun k => (congrArg c (lidx_wide r q (lo k))).trans (hlo k)) (fun k => hw (lo k)))
    (sum_eq_dot _ _ _ _ (fun k => (congrArg c (lidx_wide r q (hi k))).trans (hhi k)) (fun k => hw (hi k))))

/-- concat(x, h) · Wtᵀ at (r, q). -/
theorem dot_v24 (x0 x1 : DataT) (x4 : WideT) (r : Fin 4096) (q : Fin 1024) :
    val_main_v24 (F := Ideal) x0 x1 x4 (ix2 r q)
      = dot (rowOf x0 r) (matLo x4 q) + dot (rowOf x1 r) (matHi x4 q) :=
  (val_main_v24_apply x0 x1 x4 (ix2 r q)).trans (wide_sum _ _ x4 _ _ r q (v0_lo x0 x1 r) (v0_hi x0 x1 r)
    (fun j => (val_main_v23_apply x4 _).trans (congrArg x4 (ridx_wide r q j))))

/-- concat(x, h) · Waᵀ at (r, q). -/
theorem dot_v47 (x0 x1 : DataT) (x6 : WideT) (r : Fin 4096) (q : Fin 1024) :
    val_main_v47 (F := Ideal) x0 x1 x6 (ix2 r q)
      = dot (rowOf x0 r) (matLo x6 q) + dot (rowOf x1 r) (matHi x6 q) :=
  (val_main_v47_apply x0 x1 x6 (ix2 r q)).trans (wide_sum _ _ x6 _ _ r q (v0_lo x0 x1 r) (v0_hi x0 x1 r)
    (fun j => (val_main_v46_apply x6 _).trans (congrArg x6 (ridx_wide r q j))))

/-- concat(x, h) · Hwᵀ at (r, q). -/
theorem dot_v67 (x0 x1 : DataT) (x10 : WideT) (r : Fin 4096) (q : Fin 1024) :
    val_main_v67 (F := Ideal) x0 x1 x10 (ix2 r q)
      = dot (rowOf x0 r) (matLo x10 q) + dot (rowOf x1 r) (matHi x10 q) :=
  (val_main_v67_apply x0 x1 x10 (ix2 r q)).trans (wide_sum _ _ x10 _ _ r q (v0_lo x0 x1 r) (v0_hi x0 x1 r)
    (fun j => (val_main_v66_apply x10 _).trans (congrArg x10 (ridx_wide r q j))))

/-! ## The logistic function as the reference spells it -/

/-- 1 / (1 + e^(−z)) with both ones the word of 1. -/
theorem sigm_spelt (a b z : EReal) (ha : a = w1) (hb : b = w1) :
    FloatOps.hostDivf (F := Ideal) (φ := .f32) a
      (FloatOps.addf (F := Ideal) (φ := .f32) b (FloatOps.hostUnary (F := Ideal) .exp (φ := .f32) (FloatOps.hostNegf (F := Ideal) (φ := .f32) z)))
      = sigm z := by
  subst ha hb; rfl

/-! ## The gates of the cell, at row r and feature q -/

section gates
variable (x0 x1 x2 x3 : DataT) (x4 : WideT) (x5 : BiasT) (x6 : WideT) (x7 : BiasT) (x8 : WideT) (x9 : BiasT)
  (x10 : WideT) (x11 : BiasT) (x12 : SqT) (x13 : BiasT) (x14 : SqT) (x15 : BiasT) (r : Fin 4096) (q : Fin 1024)

/-- The initial energy: σ (x · Ei + b). -/
theorem ei_eq : val_main_v11 (F := Ideal) x0 x14 x15 (ix2 r q) = sigm (lin1 (rowOf x0 r) (matOf x14) (biasOf x15) q) := by
  refine (sigm_spelt _ _ (val_main_v2 (F := Ideal) x0 x14 (ix2 r q) + val_main_v4 (F := Ideal) x15 (ix2 r q))
    (one_v10 _) (one_v8 _)).trans ?_
  rw [dot_v2, bias_v4]; rfl

/-- The ratio: σ (x · Tr + b). -/
theorem ratio_eq : val_main_v22 (F := Ideal) x0 x12 x13 (ix2 r q) = sigm (lin1 (rowOf x0 r) (matOf x12) (biasOf x13) q) := by
  refine (sigm_spelt _ _ (val_main_v13 (F := Ideal) x0 x12 (ix2 r q) + val_main_v15 (F := Ideal) x13 (ix2 r q))
    (one_v21 _) (one_v19 _)).trans ?_
  rw [dot_v13, bias_v15]; rfl

/-- The affine map of the time update: x · Wt(first half) + h · Wt(second half) + b. -/
theorem lin_v27 : val_main_v27 (F := Ideal) x0 x1 x4 x5 (ix2 r q)
    = lin2 (rowOf x0 r) (rowOf x1 r) (matLo x4) (matHi x4) (biasOf x5) q := by
  rw [val_main_v27_apply, dot_v24, bias_v26]; rfl

/-- The new time cell before the leap: ratio · max (tc + tanh (…)) 0 − 1. -/
theorem tcNew_eq : val_main_v33 (F := Ideal) x0 x1 x3 x4 x5 x12 x13 (ix2 r q)
    = tcNew (rowOf x0 r) (rowOf x1 r) (rowOf x3 r) (matOf x12) (biasOf x13) (matLo x4) (matHi x4) (biasOf x5) q := by
  rw [val_main_v33_apply, val_main_v31_apply, val_main_v30_apply, val_main_v29_apply, val_main_v28_apply,
    ratio_eq, lin_v27, zero_call0, one_v32]; rfl

/-- The leap: 1 where the new time cell is at most 0. -/
theorem leap_eq : val_main_v36 (F := Ideal) x0 x1 x3 x4 x5 x12 x13 (ix2 r q)
    = leap (tcNew (rowOf x0 r) (rowOf x1 r) (rowOf x3 r) (matOf x12) (biasOf x13) (matLo x4) (matHi x4) (biasOf x5)) q := by
  rw [val_main_v36_apply, val_main_v35_apply, tcNew_eq, zero_v34]; rfl

/-- The new time cell: (1 − leap) · tcNew. -/
theorem tc_eq : val_main_v39 (F := Ideal) x0 x1 x3 x4 x5 x12 x13 (ix2 r q)
    = cellTc (rowOf x0 r) (rowOf x1 r) (rowOf x3 r) (matOf x12) (biasOf x13) (matLo x4) (matHi x4) (biasOf x5) q := by
  rw [val_main_v39_apply, val_main_v38_apply, leap_eq, tcNew_eq, one_v37]; rfl

end gates

/-- The reference's new time cell is the cell's. -/
theorem ref_tc (x0 x1 x3 : (⟨S4096x1024, .f32⟩ : BufTy).Contents (Elt Ideal)) (x4 : (⟨S1024x2048, .f32⟩ : BufTy).Contents (Elt Ideal))
    (x5 : (⟨S1024, .f32⟩ : BufTy).Contents (Elt Ideal)) (x12 : (⟨S1024x1024, .f32⟩ : BufTy).Contents (Elt Ideal))
    (x13 : (⟨S1024, .f32⟩ : BufTy).Contents (Elt Ideal)) :
    Read.val_main_v39 (F := Ideal) x0 x1 x3 x4 x5 x12 x13 = Cert.Cell.arrTc x0 x1 x3 x4 x5 x12 x13 := by
  funext i
  obtain ⟨r, q, rfl⟩ : ∃ (r : Fin 4096) (q : Fin 1024), i = ix2 r q := ⟨i 0, i 1, eq_ix2 i⟩
  exact tc_eq x0 x1 x3 x4 x5 x12 x13 r q

section gates2
variable (x0 x1 x2 x3 : DataT) (x4 : WideT) (x5 : BiasT) (x6 : WideT) (x7 : BiasT) (x8 : WideT) (x9 : BiasT)
  (x10 : WideT) (x11 : BiasT) (x12 : SqT) (x13 : BiasT) (x14 : SqT) (x15 : BiasT) (r : Fin 4096) (q : Fin 1024)

/-- The new time cell before the leap, along row r. -/
abbrev tcnRow : Row :=
  tcNew (rowOf x0 r) (rowOf x1 r) (rowOf x3 r) (matOf x12) (biasOf x13) (matLo x4) (matHi x4) (biasOf x5)

/-- The released energy: leap · ex. -/
theorem energy_eq : val_main_v40 (F := Ideal) x0 x1 x2 x3 x4 x5 x12 x13 (ix2 r q)
    = energy (rowOf x2 r) (tcnRow x0 x1 x3 x4 x5 x12 x13 r) q := by
  rw [val_main_v40_apply, leap_eq]; rfl

/-- The absorbed energy: σ (x · Wa(first half) + h · Wa(second half) + b). -/
theorem absorb_eq : val_main_v56 (F := Ideal) x0 x1 x6 x7 (ix2 r q)
    = sigm (lin2 (rowOf x0 r) (rowOf x1 r) (matLo x6) (matHi x6) (biasOf x7) q) := by
  refine (sigm_spelt _ _ (val_main_v47 (F := Ideal) x0 x1 x6 (ix2 r q) + val_main_v49 (F := Ideal) x7 (ix2 r q))
    (one_v55 _) (one_v53 _)).trans ?_
  rw [dot_v47, bias_v49]; rfl

/-- The new excited cell: ((ex − energy) + ei · (1 − leap)) + absorb. -/
theorem ex_eq : val_main_v57 (F := Ideal) x0 x1 x2 x3 x4 x5 x6 x7 x12 x13 x14 x15 (ix2 r q)
    = cellEx (rowOf x0 r) (rowOf x1 r) (rowOf x2 r) (rowOf x3 r) (matOf x12) (biasOf x13) (matLo x4) (matHi x4) (biasOf x5)
        (matOf x14) (biasOf x15) (matLo x6) (matHi x6) (biasOf x7) q := by
  rw [val_main_v57_apply, val_main_v45_apply, val_main_v41_apply, val_main_v44_apply, val_main_v43_apply,
    energy_eq, ei_eq, leap_eq, absorb_eq, one_v42]; rfl

/-- The state gated by the released energy: h · energy. -/
theorem hup_eq : val_main_v58 (F := Ideal) x0 x1 x2 x3 x4 x5 x12 x13 (ix2 r q)
    = rowOf x1 r q * energy (rowOf x2 r) (tcnRow x0 x1 x3 x4 x5 x12 x13 r) q := by
  rw [val_main_v58_apply, energy_eq]; rfl

/-- The concatenation of the input with the gated state, on the first half of the columns: the input. -/
theorem v59_lo (k : Fin 1024) : val_main_v59 (F := Ideal) x0 x1 x2 x3 x4 x5 x12 x13 (ix2 r (lo k)) = x0 (ix2 r k) :=
  cat_lo x0 _ r k
/-- On the second half: the gated state. -/
theorem v59_hi (k : Fin 1024) : val_main_v59 (F := Ideal) x0 x1 x2 x3 x4 x5 x12 x13 (ix2 r (hi k))
    = val_main_v58 (F := Ideal) x0 x1 x2 x3 x4 x5 x12 x13 (ix2 r k) :=
  cat_hi x0 _ r k

/-- concat(x, h · energy) · Ehᵀ at (r, q). -/
theorem dot_v61 : val_main_v61 (F := Ideal) x0 x1 x2 x3 x4 x5 x8 x12 x13 (ix2 r q)
    = dot (rowOf x0 r) (matLo x8 q)
      + dot (fun k => rowOf x1 r k * energy (rowOf x2 r) (tcnRow x0 x1 x3 x4 x5 x12 x13 r) k) (matHi x8 q) :=
  (val_main_v61_apply x0 x1 x2 x3 x4 x5 x8 x12 x13 (ix2 r q)).trans (wide_sum _ _ x8 _ _ r q
    (v59_lo x0 x1 x2 x3 x4 x5 x12 x13 r)
    (fun k => (v59_hi x0 x1 x2 x3 x4 x5 x12 x13 r k).trans (hup_eq x0 x1 x2 x3 x4 x5 x12 x13 r k))
    (fun j => (val_main_v60_apply x8 _).trans (congrArg x8 (ridx_wide r q j))))

/-- The candidate state: tanh (x · Eh(first half) + (h · energy) · Eh(second half) + b). -/
theorem hstate_eq : val_main_v65 (F := Ideal) x0 x1 x2 x3 x4 x5 x8 x9 x12 x13 (ix2 r q)
    = Ideal.tanh (lin2 (rowOf x0 r) (fun k => rowOf x1 r k * energy (rowOf x2 r) (tcnRow x0 x1 x3 x4 x5 x12 x13 r) k)
        (matLo x8) (matHi x8) (biasOf x9) q) := by
  rw [val_main_v65_apply, val_main_v64_apply, dot_v61, bias_v63]; rfl

/-- The mixing weight: σ (x · Hw(first half) + h · Hw(second half) + b). -/
theorem hw_eq : val_main_v76 (F := Ideal) x0 x1 x10 x11 (ix2 r q)
    = sigm (lin2 (rowOf x0 r) (rowOf x1 r) (matLo x10) (matHi x10) (biasOf x11) q) := by
  refine (sigm_spelt _ _ (val_main_v67 (F := Ideal) x0 x1 x10 (ix2 r q) + val_main_v69 (F := Ideal) x11 (ix2 r q))
    (one_v75 _) (one_v73 _)).trans ?_
  rw [dot_v67, bias_v69]; rfl

/-- The new state: tanh ((1 − hw) · h + hw · hState). -/
theorem h_eq : val_main_v82 (F := Ideal) x0 x1 x2 x3 x4 x5 x8 x9 x10 x11 x12 x13 (ix2 r q)
    = cellH (rowOf x0 r) (rowOf x1 r) (rowOf x2 r) (rowOf x3 r) (matOf x12) (biasOf x13) (matLo x4) (matHi x4) (biasOf x5)
        (matLo x8) (matHi x8) (biasOf x9) (matLo x10) (matHi x10) (biasOf x11) q := by
  rw [val_main_v82_apply, val_main_v81_apply, val_main_v79_apply, val_main_v80_apply, val_main_v78_apply,
    hw_eq, hstate_eq, one_v77]; rfl

end gates2

/-- The reference's new excited cell is the cell's. -/
theorem ref_ex (x0 x1 x2 x3 : (⟨S4096x1024, .f32⟩ : BufTy).Contents (Elt Ideal)) (x4 : (⟨S1024x2048, .f32⟩ : BufTy).Contents (Elt Ideal))
    (x5 : (⟨S1024, .f32⟩ : BufTy).Contents (Elt Ideal)) (x6 : (⟨S1024x2048, .f32⟩ : BufTy).Contents (Elt Ideal))
    (x7 : (⟨S1024, .f32⟩ : BufTy).Contents (Elt Ideal)) (x12 : (⟨S1024x1024, .f32⟩ : BufTy).Contents (Elt Ideal))
    (x13 : (⟨S1024, .f32⟩ : BufTy).Contents (Elt Ideal)) (x14 : (⟨S1024x1024, .f32⟩ : BufTy).Contents (Elt Ideal))
    (x15 : (⟨S1024, .f32⟩ : BufTy).Contents (Elt Ideal)) :
    Read.val_main_v57 (F := Ideal) x0 x1 x2 x3 x4 x5 x6 x7 x12 x13 x14 x15
      = Cert.Cell.arrEx x0 x1 x2 x3 x4 x5 x6 x7 x12 x13 x14 x15 := by
  funext i
  obtain ⟨r, q, rfl⟩ : ∃ (r : Fin 4096) (q : Fin 1024), i = ix2 r q := ⟨i 0, i 1, eq_ix2 i⟩
  exact ex_eq x0 x1 x2 x3 x4 x5 x6 x7 x12 x13 x14 x15 r q

/-- The reference's new state is the cell's. -/
theorem ref_h (x0 x1 x2 x3 : (⟨S4096x1024, .f32⟩ : BufTy).Contents (Elt Ideal)) (x4 : (⟨S1024x2048, .f32⟩ : BufTy).Contents (Elt Ideal))
    (x5 : (⟨S1024, .f32⟩ : BufTy).Contents (Elt Ideal)) (x8 : (⟨S1024x2048, .f32⟩ : BufTy).Contents (Elt Ideal))
    (x9 : (⟨S1024, .f32⟩ : BufTy).Contents (Elt Ideal)) (x10 : (⟨S1024x2048, .f32⟩ : BufTy).Contents (Elt Ideal))
    (x11 : (⟨S1024, .f32⟩ : BufTy).Contents (Elt Ideal)) (x12 : (⟨S1024x1024, .f32⟩ : BufTy).Contents (Elt Ideal))
    (x13 : (⟨S1024, .f32⟩ : BufTy).Contents (Elt Ideal)) :
    Read.val_main_v82 (F := Ideal) x0 x1 x2 x3 x4 x5 x8 x9 x10 x11 x12 x13
      = Cert.Cell.arrH x0 x1 x2 x3 x4 x5 x8 x9 x10 x11 x12 x13 := by
  funext i
  obtain ⟨r, q, rfl⟩ : ∃ (r : Fin 4096) (q : Fin 1024), i = ix2 r q := ⟨i 0, i 1, eq_ix2 i⟩
  exact h_eq x0 x1 x2 x3 x4 x5 x8 x9 x10 x11 x12 x13 r q

end Cert.RefCell

end
-- ==== Proof.lean ====
/-
  A recurrent cell with a hard time threshold, fused into one kernel over blocks of 128 batch rows, against its plain
  array-level reference — equal on the extended reals.

  Both programs compute, for a batch of 4096 rows of 1024 features, from the input x, the state h, the excited cell ex,
  the time cell tc and six affine maps (each `· Wᵀ + b`, four of them on the concatenation [x, h] with a [1024, 2048]
  weight), with σ z = 1 / (1 + e^(-z)):
      tcNew = σ(x·Tr + b) · max (tc + tanh([x,h]·Wt + b)) 0 − 1,      leap = 1 if tcNew ≤ 0 else 0,
      tc'   = (1 − leap) · tcNew,                                      energy = leap · ex,
      ex'   = ((ex − energy) + σ(x·Ei + b) · (1 − leap)) + σ([x,h]·Wa + b),
      h'    = tanh ((1 − hw) · h + hw · tanh([x, h ⊙ energy]·Eh + b)),   hw = σ([x,h]·Hw + b).
  The reference multiplies the concatenated row by the whole wide weight; the kernel multiplies x by the first 1024
  columns and h by the last 1024 and adds — one sum over 2048 terms against two sums over 1024, equal in any commutative
  monoid (no cancellation, so nothing needs the inputs finite). The kernel rounds its matmul operands to a shorter float
  format, fuses the absorb and mixing gates into one [2048]-wide product which it then cuts in two, spells σ as one
  operation where the reference spells the quotient, and reads the threshold bit as a signed 32-bit integer where the
  reference reads it unsigned: on the extended reals a change of format is the identity, a product into zeros is the
  plain sum, σ is the quotient, and a bit is 0 or 1 either way. Each row of the results depends on that row of the data
  only, so a block of 128 rows and the batch of 4096 rows are instances of one row function (`CellSpec`), and the 32
  blocks tile the arrays.

  The modules: `Halves` (the two halves of the 2048 columns), `CellSpec` (the cell of one row), `CellArrays` (the cell over
  an array of rows), `RefCell` (the reference's three results are that), `MatmulAt` / `BlockCell` (so is each block the
  kernel stores, entry by entry), `BlockReads` / `StagedArrays` (what each window hands the body, in terms of the sixteen
  arguments), `WholeArrays` (the blocks tile the arrays: the kernel's run with its three results named). Here: the three
  frames, the (empty) list of rewrites, and the two runs side by side.
-/
import proofs.«165451_j4337916969454_2_alg».proof.Defs
import proofs.«165451_j4337916969454_2_alg».proof.Proof.Gen.Kernel
import proofs.«165451_j4337916969454_2_alg».proof.Proof.Gen.Kernel.Skeleton
import proofs.«165451_j4337916969454_2_alg».proof.Proof.Gen.Kernel.Launch
import proofs.«165451_j4337916969454_2_alg».proof.Proof.Gen.Kernel.Points
import proofs.«165451_j4337916969454_2_alg».proof.Proof.Gen.Kernel.Frame
import proofs.«165451_j4337916969454_2_alg».proof.Proof.Gen.KernelIdeal
import proofs.«165451_j4337916969454_2_alg».proof.Proof.Gen.KernelIdeal.Skeleton
import proofs.«165451_j4337916969454_2_alg».proof.Proof.Gen.KernelIdeal.Launch
import proofs.«165451_j4337916969454_2_alg».proof.Proof.Gen.KernelIdeal.Points
import proofs.«165451_j4337916969454_2_alg».proof.Proof.Gen.KernelIdeal.Frame
import proofs.«165451_j4337916969454_2_alg».proof.Proof.Gen.ReferenceIdeal
import proofs.«165451_j4337916969454_2_alg».proof.Proof.Gen.Pre_finite_inputs
import proofs.«165451_j4337916969454_2_alg».proof.Proof.Gen.ReferenceIdeal.Run
import proofs.«165451_j4337916969454_2_alg».proof.Proof.Gen.ReferenceIdeal.Read
import proofs.«165451_j4337916969454_2_alg».proof.Proof.WholeArrays
import proofs.«165451_j4337916969454_2_alg».proof.Proof.RefCell
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as they were: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- No operation of the kernel was rewritten on the way to the extended reals: nothing to state. -/
theorem preserves : Cert.preserves_Kernel_KernelIdeal := trivial

/-- From memories that agree on the sixteen arguments, the kernel's three result arrays are `arrH`, `arrEx`, `arrTc` of the
    arguments (the blocks tile the arrays), and so are the reference's (stage by stage, with the sum over the 2048
    columns split in its two halves). -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono (fun r h c => ?_) (Cert.ReferenceIdeal.Value.run (F := Ideal) m' ρ')
  obtain ⟨e82, e57, e39, hargs⟩ := h c
  obtain ⟨g0, g1, g2, g3, g4, g5, g6, g7, g8, g9, g10, g11, g12, g13, g14, g15⟩ := hagree c
  refine ⟨?_, ?_, ?_, hargs⟩
  · rw [e82, Cert.ReferenceIdeal.Read.val_main_v82_eq, Cert.RefCell.ref_h, g0, g1, g2, g3, g4, g5, g8, g9, g10, g11, g12, g13]
  · rw [e57, Cert.ReferenceIdeal.Read.val_main_v57_eq, Cert.RefCell.ref_ex, g0, g1, g2, g3, g4, g5, g6, g7, g12, g13, g14, g15]
  · rw [e39, Cert.ReferenceIdeal.Read.val_main_v39_eq, Cert.RefCell.ref_tc, g0, g1, g3, g4, g5, g12, g13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
